-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x384 : Shape := ⟨3, ![512, 256, 384]⟩
abbrev S384x64 : Shape := ⟨2, ![384, 64]⟩
abbrev S_ : Shape := ⟨0, ![]⟩

class Facts : Prop where
  bcast_S_S512x256x384 : S_.BroadcastsInDim S512x256x384 (![] : Fin 0 → Fin S512x256x384.rank)
  reducesTo_S512x256x384_S_d0_1_2 : S512x256x384.ReducesTo [0, 1, 2] S_
  h_S_ : 0 < S_.numel
  bcast_S_S384x64 : S_.BroadcastsInDim S384x64 (![] : Fin 0 → Fin S384x64.rank)
  reducesTo_S384x64_S_d0_1 : S384x64.ReducesTo [0, 1] S_

variable [Facts]

def fn_part1 {F : FTy → Type} [FloatOps F] (main_v13 : IVec S_ 1) (main_v16 : IVec S384x64 1) : IVec S_ 1 :=
  let main_c_5 : IVec S_ 1 := constantI S_ 1 1#1
  let main_v17 : IVec S_ 1 := (fun x v => Host.reduce IntOp.andi x v reducesTo_S384x64_S_d0_1 h_S_) main_v16 main_c_5
  let main_v18 : IVec S_ 1 := andi main_v13 main_v17
  main_v18

def fn {F : FTy → Type} [FloatOps F] (main_arg0 : FVec F S512x256x384 .f32) (main_arg1 : FVec F S384x64 .f32) (main_arg2 : FVec F S384x64 .f32) (main_arg3 : FVec F S384x64 .f32) : IVec S_ 1 :=
  let main_v0 : FVec F S512x256x384 .f32 := Host.absf main_arg0
  let main_cst : FVec F S_ .f32 := constant S_ .f32 0x7F800000#32
  let main_v1 : FVec F S512x256x384 .f32 := broadcastInDim S512x256x384 ![] bcast_S_S512x256x384 main_cst
  let main_v2 : IVec S512x256x384 1 := cmpf .olt main_v0 main_v1
  let main_c : IVec S_ 1 := constantI S_ 1 1#1
  let main_v3 : IVec S_ 1 := (fun x v => Host.reduce IntOp.andi x v reducesTo_S512x256x384_S_d0_1_2 h_S_) main_v2 main_c
  let main_v4 : FVec F S384x64 .f32 := Host.absf main_arg1
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S384x64 .f32 := Host.absf main_arg3
  let main_cst_4 : FVec F S_ .f32 := constant S_ .f32 0x7F800000#32
  let main_v15 : FVec F S384x64 .f32 := broadcastInDim S384x64 ![] bcast_S_S384x64 main_cst_4
  let main_v16 : IVec S384x64 1 := cmpf .olt main_v14 main_v15
  fn_part1 (F := F) main_v13 main_v16
-- ==== Kernel.lean ====
abbrev S512x256x384 : Shape := ⟨3, ![512, 256, 384]⟩
abbrev S384x64 : Shape := ⟨2, ![384, 64]⟩
abbrev S384x192 : Shape := ⟨2, ![384, 192]⟩
abbrev S512x256x64 : Shape := ⟨3, ![512, 256, 64]⟩
abbrev S16x256x384 : Shape := ⟨3, ![16, 256, 384]⟩
abbrev S16x256x64 : Shape := ⟨3, ![16, 256, 64]⟩
abbrev S16x256x192 : Shape := ⟨3, ![16, 256, 192]⟩
abbrev S4096x384 : Shape := ⟨2, ![4096, 384]⟩
abbrev S4096x192 : Shape := ⟨2, ![4096, 192]⟩
abbrev S256x256 : Shape := ⟨2, ![256, 256]⟩
abbrev S1x256x192 : Shape := ⟨3, ![1, 256, 192]⟩
abbrev S256x192 : Shape := ⟨2, ![256, 192]⟩
abbrev S256x64 : Shape := ⟨2, ![256, 64]⟩
abbrev S64x256 : Shape := ⟨2, ![64, 256]⟩
abbrev S256 : Shape := ⟨1, ![256]⟩
abbrev S256x1 : Shape := ⟨2, ![256, 1]⟩
abbrev S1x256x64 : Shape := ⟨3, ![1, 256, 64]⟩

abbrev nBuf : Space → Nat
  | .hbm => 6
  | .vmem => 6
  | .smem => 0
  | _ => 0

abbrev bufTy : (tb : Table) → Fin (tcTables nBuf tb) → BufTy
  | .hbm, ⟨0, _⟩ => ⟨S512x256x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S384x192, .f32⟩
  | .hbm, ⟨5, _⟩ => ⟨S512x256x64, .f32⟩
  | .local _ .vmem, ⟨0, _⟩ => ⟨S16x256x384, .f32⟩
  | .local _ .vmem, ⟨1, _⟩ => ⟨S16x256x384, .f32⟩
  | .local _ .vmem, ⟨2, _⟩ => ⟨S384x192, .f32⟩
  | .local _ .vmem, ⟨3, _⟩ => ⟨S16x256x64, .f32⟩
  | .local _ .vmem, ⟨4, _⟩ => ⟨S16x256x64, .f32⟩
  | .local _ .vmem, ⟨5, _⟩ => ⟨S16x256x192, .bf16⟩
  | _, _ => ⟨S512x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_off1 (k0_t1 : Fin k0_t1_loop.trips) : Fin 3 → Nat :=
  let c0_i32_9 : BitVec 32 := 0#32
  let c0_i32 : BitVec 32 := 0#32
  let c1_i32 : BitVec 32 := 1#32
  let arg5 : BitVec 32 := Scf.iv c0_i32 c1_i32 k0_t1
  let c1_i32_8 : BitVec 32 := 1#32
  let v16 : BitVec 32 := Scalar.muli arg5 c1_i32_8
  let v17 : BitVec 32 := Scalar.addi c0_i32_9 v16
  let v18 : Index := Scalar.indexCast v17
  let c0_10 : Index := 0#32
  let c0_11 : Index := 0#32
  ![v18.toNat, 0, 0]
def k0_off2 (k0_t1 : Fin k0_t1_loop.trips) : Fin 3 → Nat :=
  let c0_i32_9 : BitVec 32 := 0#32
  let c0_i32 : BitVec 32 := 0#32
  let c1_i32 : BitVec 32 := 1#32
  let arg5 : BitVec 32 := Scf.iv c0_i32 c1_i32 k0_t1
  let c1_i32_8 : BitVec 32 := 1#32
  let v16 : BitVec 32 := Scalar.muli arg5 c1_i32_8
  let v17 : BitVec 32 := Scalar.addi c0_i32_9 v16
  let v41 : Index := Scalar.indexCast v17
  let c0_18 : Index := 0#32
  let c0_19 : Index := 0#32
  ![v41.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S384x64_S384x64_S384x64_S384x192_d1 : Shape.Concatenates [S384x64, S384x64, S384x64] S384x192 1
  inb_S16x256x384_S16x256x384_0_0_0 : ∀ a, (![0, 0, 0] : Fin 3 → Nat) a + S16x256x384.size a ≤ S16x256x384.size a
  h_S16x256x384 : 0 < S16x256x384.numel
  bitsLt_bf16_f32 : FTy.bits .bf16 < FTy.bits .f32
  inb_S384x192_S384x192_0_0 : ∀ a, (![0, 0] : Fin 2 → Nat) a + S384x192.size a ≤ S384x192.size a
  h_S384x192 : 0 < S384x192.numel
  shapeCasts_S384x192_S384x192 : S384x192.ShapeCasts S384x192
  shapeCasts_S16x256x384_S4096x384 : S16x256x384.ShapeCasts S4096x384
  shapeCasts_S4096x192_S16x256x192 : S4096x192.ShapeCasts S16x256x192
  inb_S16x256x192_S16x256x192_0_0_0 : ∀ a, (![0, 0, 0] : Fin 3 → Nat) a + S16x256x192.size a ≤ S16x256x192.size a
  h_S16x256x192 : 0 < S16x256x192.numel
  shapeCasts_S16x256x192_S16x256x192 : S16x256x192.ShapeCasts S16x256x192
  packedbf16_S16x256x192_S16x256x192_0_0_0 : (Rect.unit (s := S16x256x192) ![0, 0, 0] S16x256x192.size inb_S16x256x192_S16x256x192_0_0_0).PackedRows (EltTy.packing .bf16)
  iota_S256x256_d0_w32 : S256x256.Iotas .tc 32 [0]
  iota_S256x256_d1_w32 : S256x256.Iotas .tc 32 [1]
  h_S1x256x192 : 0 < S1x256x192.numel
  shapeCasts_S1x256x192_S256x192 : S1x256x192.ShapeCasts S256x192
  slices_S256x192_o0_0_S256x64 : S256x192.Slices ![0, 0] S256x64
  slices_S256x192_o0_64_S256x64 : S256x192.Slices ![0, 64] S256x64
  slices_S256x192_o0_128_S256x64 : S256x192.Slices ![0, 128] S256x64
  transposes_S256x64_p1_0_S64x256 : S256x64.Transposes [1, 0] S64x256
  reduces_S256x256_S256 : S256x256.Reduces [1] S256
  shapeCasts_S256_S256x1 : S256.ShapeCasts S256x1
  broadcasts_S256x1_S256x256 : S256x1.Broadcasts S256x256
  h_S1x256x64 : 0 < S1x256x64.numel
  shapeCasts_S1x256x64_S256x64 : S1x256x64.ShapeCasts S256x64
  shapeCasts_S256x64_S1x256x64 : S256x64.ShapeCasts S1x256x64
  dot_S4096x384_S384x192_S4096x192_1_0_0_1_n_n_wf : DotDims.WF S4096x384 S384x192 S4096x192 [1] [0] [0] [1] [] []
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  k0_t1_ok : k0_t1_loop.OK
  k0_off1_inb : ∀ k0_t1 : Fin k0_t1_loop.trips, ∀ a, (k0_off1 k0_t1) a + S1x256x192.size a ≤ S16x256x192.size a
  k0_off2_inb : ∀ k0_t1 : Fin k0_t1_loop.trips, ∀ a, (k0_off2 k0_t1) a + S1x256x64.size a ≤ S16x256x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x384.size a ≤ S512x256x384.size a
  hwx0_0 : ∀ i : grid0.Coords, EltTy.bits .f32 = 32 ∨ (Rect.block (s := S512x256x384) S16x256x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x192.size a ≤ S384x192.size a
  hwx0_1 : ∀ i : grid0.Coords, EltTy.bits .f32 = 32 ∨ (Rect.block (s := S384x192) S384x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x64.size a ≤ S512x256x64.size a
  hwx0_2 : ∀ i : grid0.Coords, EltTy.bits .f32 = 32 ∨ (Rect.block (s := S512x256x64) S16x256x64.size (cc0_transform_2 i) (hinb0_2 i)).WholeWords (EltTy.packing .f32)

variable [Facts₀]

def dot_S4096x384_S384x192_S4096x192_1_0_0_1_n_n : DotDims S4096x384 S384x192 S4096x192 where
  lhsContracting := [1]
  rhsContracting := [0]
  lhsNonContracting := [0]
  rhsNonContracting := [1]
  lhsBatch := []
  rhsBatch := []
  wf := dot_S4096x384_S384x192_S4096x192_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S16x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256x384 : Shape := ⟨3, ![512, 256, 384]⟩
abbrev S384x64 : Shape := ⟨2, ![384, 64]⟩
abbrev S512x256x64 : Shape := ⟨3, ![512, 256, 64]⟩
abbrev S512x256x256 : Shape := ⟨3, ![512, 256, 256]⟩
abbrev S_ : Shape := ⟨0, ![]⟩
abbrev S256x256 : Shape := ⟨2, ![256, 256]⟩
abbrev S512x256 : Shape := ⟨2, ![512, 256]⟩
abbrev S512x256x1 : Shape := ⟨3, ![512, 256, 1]⟩

abbrev nBuf : Space → Nat
  | .hbm => 42
  | .vmem => 0
  | .smem => 0
  | _ => 0

abbrev bufTy : (tb : Table) → Fin (tcTables nBuf tb) → BufTy
  | .hbm, ⟨0, _⟩ => ⟨S512x256x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S512x256x64, .f32⟩
  | .hbm, ⟨5, _⟩ => ⟨S512x256x64, .f32⟩
  | .hbm, ⟨6, _⟩ => ⟨S512x256x64, .f32⟩
  | .hbm, ⟨7, _⟩ => ⟨S512x256x256, .f32⟩
  | .hbm, ⟨8, _⟩ => ⟨S_, .f32⟩
  | .hbm, ⟨9, _⟩ => ⟨S512x256x256, .f32⟩
  | .hbm, ⟨10, _⟩ => ⟨S512x256x256, .f32⟩
  | .hbm, ⟨11, _⟩ => ⟨S_, .i1⟩
  | .hbm, ⟨12, _⟩ => ⟨S256x256, .i1⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .i1⟩
  | .hbm, ⟨20, _⟩ => ⟨S256x256, .i1⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S512x256x256, .i1⟩
  | .hbm, ⟨25, _⟩ => ⟨S512x256x256, .f32⟩
  | .hbm, ⟨26, _⟩ => ⟨S512x256x256, .f32⟩
  | .hbm, ⟨27, _⟩ => ⟨S_, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256x1, .f32⟩
  | .hbm, ⟨33, _⟩ => ⟨S512x256x256, .f32⟩
  | .hbm, ⟨34, _⟩ => ⟨S512x256x256, .f32⟩
  | .hbm, ⟨35, _⟩ => ⟨S512x256x256, .f32⟩
  | .hbm, ⟨36, _⟩ => ⟨S_, .f32⟩
  | .hbm, ⟨37, _⟩ => ⟨S512x256, .f32⟩
  | .hbm, ⟨38, _⟩ => ⟨S512x256x1, .f32⟩
  | .hbm, ⟨39, _⟩ => ⟨S512x256x256, .f32⟩
  | .hbm, ⟨40, _⟩ => ⟨S512x256x256, .f32⟩
  | .hbm, ⟨41, _⟩ => ⟨S512x256x64, .f32⟩
  | _, _ => ⟨S512x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S512x256x256 : S_.BroadcastsInDim S512x256x256 (![] : Fin 0 → Fin S512x256x256.rank)
  bcast_S_S256x256 : S_.BroadcastsInDim S256x256 (![] : Fin 0 → Fin S256x256.rank)
  bcast_S256x256_S512x256x256_1_2 : S256x256.BroadcastsInDim S512x256x256 (![1, 2] : Fin 2 → Fin S512x256x256.rank)
  reducesTo_S512x256x256_S512x256_d2 : S512x256x256.ReducesTo [2] S512x256
  h_S_ : 0 < S_.numel
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S512x256x1_S512x256x256_0_1_2 : S512x256x1.BroadcastsInDim S512x256x256 (![0, 1, 2] : Fin 3 → Fin S512x256x256.rank)
  dot_S512x256x384_S384x64_S512x256x64_2_0_01_1_n_n_wf : DotDims.WF S512x256x384 S384x64 S512x256x64 [2] [0] [0, 1] [1] [] []
  dot_S512x256x64_S512x256x64_S512x256x256_2_2_1_1_0_0_wf : DotDims.WF S512x256x64 S512x256x64 S512x256x256 [2] [2] [1] [1] [0] [0]
  dot_S512x256x256_S512x256x64_S512x256x64_2_1_1_2_0_0_wf : DotDims.WF S512x256x256 S512x256x64 S512x256x64 [2] [1] [1] [2] [0] [0]

variable [Facts₀]

def dot_S512x256x384_S384x64_S512x256x64_2_0_01_1_n_n : DotDims S512x256x384 S384x64 S512x256x64 where
  lhsContracting := [2]
  rhsContracting := [0]
  lhsNonContracting := [0, 1]
  rhsNonContracting := [1]
  lhsBatch := []
  rhsBatch := []
  wf := dot_S512x256x384_S384x64_S512x256x64_2_0_01_1_n_n_wf
def dot_S512x256x64_S512x256x64_S512x256x256_2_2_1_1_0_0 : DotDims S512x256x64 S512x256x64 S512x256x256 where
  lhsContracting := [2]
  rhsContracting := [2]
  lhsNonContracting := [1]
  rhsNonContracting := [1]
  lhsBatch := [0]
  rhsBatch := [0]
  wf := dot_S512x256x64_S512x256x64_S512x256x256_2_2_1_1_0_0_wf
def dot_S512x256x256_S512x256x64_S512x256x64_2_1_1_2_0_0 : DotDims S512x256x256 S512x256x64 S512x256x64 where
  lhsContracting := [2]
  rhsContracting := [1]
  lhsNonContracting := [1]
  rhsNonContracting := [2]
  lhsBatch := [0]
  rhsBatch := [0]
  wf := dot_S512x256x256_S512x256x64_S512x256x64_2_1_1_2_0_0_wf

class Facts : Prop extends Facts₀ where

variable [Facts]
-- ==== Proof.BitsEntry.lean ====
/-
  The program up to its pipelined region, and what the region's run gives back.

  @main is one host operation — the three weight matrices [384, 64] laid side by side into one [384, 192] array —
  followed by the region. `V` is each buffer's contents when the region is entered (the launch contents, with the
  concatenated array written); no host operation writes an argument array, so the region finds the arguments as
  launched. A window's block at a grid point is its array read through the point's rectangle (`iblk`): the input
  windows hold exactly that when the body runs, whether the point fetched them or not (the weights are fetched at
  the first point only, and their block never moves). From a run that ends with every window's array at what the
  pipeline's bookkeeping computes and every other buffer untouched, the four argument arrays end as launched.
-/
import proofs.«151432_j62749472194710_2_alg».proof.Proof.Gen.Kernel.Launch
import proofs.«151432_j62749472194710_2_alg».proof.Proof.Gen.Kernel.Skeleton
import proofs.«151432_j62749472194710_2_alg».proof.Proof.Gen.Kernel.Loops
import proofs.«151432_j62749472194710_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the concatenation. -/
abbrev V (c : Dev nD) (b : Ref sig .tc) : Buf (Elt F) ((c : Thread nD τ).loc b) :=
  StableHlo.after (hostOps0 (F := F)) (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its result only: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`: its array, as the region finds it, read through the point's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input `x`'s staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the whole concatenated array at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run that leaves each window's array at what the pipeline's bookkeeping computes (an input's: its entry
    contents) and every other unscoped buffer as the region found it, the four argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The memrefs the body is called on -/

/-- One staging buffer of the output window, through which its contents are stated (the choice does not matter). -/
abbrev VO : View sig .tc .vmem S16x256x64 .f32 := (Memref.whole cc0_stg2_0 : Memref sig .tc .vmem S16x256x64 .f32).view
/-- Each window's current staging memref at point `t`, as the pipeline passes it, and its wholeness. -/
abbrev ms0 (t : Fin cfg0.N) : Memref sig .tc .vmem S16x256x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256x64 .f32 := win0_2.stage (cfg0.slots t 2)
abbrev hs2 (t : Fin cfg0.N) : (ms2 t).IsWhole := hstage0_2 ((cfg0.slots t 2).cast nbuf0_2)
/-- The kernel's scratch (the projections of the point's sixteen sequences), a whole buffer of its own. -/
abbrev scM : Memref sig .tc .vmem S16x256x192 .bf16 := Memref.whole cc0_scratch0

/-- The region's invariant between points: the scratch owned at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Entry

end
-- ==== Proof.BitsBody.lean ====
/-
  One grid point's body, run once on any whole staging memrefs.

  The body reads the point's block of `x` (sixteen sequences) and the concatenated weights, writes the projections of
  all sixteen sequences into its scratch in one store that covers it, and then, sequence by sequence (a counted loop
  of sixteen trips), reads that sequence's row of the scratch and writes that sequence's row of the output block.
  It also reads the scratch and each output row before overwriting them; those values are not used.
  So the inputs are left as found, and the output's and the scratch's buffers end as lists of stored pieces written
  over whatever they held: the lists are what the run finds.
-/
import proofs.«151432_j62749472194710_2_alg».proof.Proof.BitsEntry

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref (`L3`) and in the scratch (`LS`), as pieces (last
    first), with the proof that on whole memrefs — the inputs' at their contents, the output's and the scratch's at
    anything — the body runs to its continuation holding the inputs as they were and the two written buffers with
    their pieces written. -/
noncomputable def kernelRun (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) :
    Σ' (L3 : List (View.Piece (Elt F) S16x256x64 .f32)), { LS : List (View.Piece (Elt F) S16x256x192 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__attn_kernel i arg1 harg1 arg2 harg2 arg3 harg3 arg4 harg4) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    iexists _; iexact H4

end Cert.Kernel.Entry

end
-- ==== Proof.BitsFrame.lean ====
/-
  The pipelined region's run, point by point, and the frame it gives.

  At grid point `t` the body is handed the point's block of `x` (sixteen sequences) and the concatenated weights, and
  leaves in the output's staging buffer sixteen stored rows — one per sequence, together tiling the block — so what the
  buffer holds afterwards does not depend on what it held before: it is the stored pieces read back (`outsAt`). The
  scratch is the kernel's own and is rewritten at every point, so between points it is only owned, at some contents.
  With this bookkeeping the pipeline library's launch theorem gives the run of @main: it terminates, nothing faults,
  every window's array ends at what the bookkeeping computes, and every other buffer is untouched; in particular the
  argument arrays end as launched.
-/
import proofs.«151432_j62749472194710_2_alg».proof.Proof.BitsBody

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen stored rows tile the output block (each a [1, 256, 64] row at its own sequence), so they cover it. -/
theorem cover3 (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) (y : S16x256x64.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S1x256x64.size (by sl_kernel_rfl) y

/-- What the run leaves in the output's staging buffer: its pieces read back over junk. -/
def out3 (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) : Vec F S16x256x64 .f32 :=
  VO.read (Elt F) (VO.writes (Elt F) VO.junk (kernelRun c i arg1 harg1 arg2 harg2 arg3 harg3 arg4 harg4 x0 x1).1)

/-! ## What the output holds after each point -/

/-- The output's staging buffer after the body at point `t`: the run's contents at the point's memrefs and input blocks. -/
def outsAt (c : Dev nD) (t : Fin cfg0.N) : Vec F S16x256x64 .f32 :=
  out3 c (grid0.coords t) (ms0 t) (hs0 t) (ms1 t) (hs1 t) (ms2 t) (hs2 t) scM (Memref.isWhole_whole _) (iblk m c 0 t) (iblk m c 1 t)

/-! ## The pipeline's bookkeeping -/

/-- On core `c`: the arrays as the region finds them; after the body at point `t` each input's buffer at its block
    and the output's at `outsAt`; between points the scratch owned at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' memrefs hold their blocks, the scratch comes out of the invariant and goes
    back into it at its new contents, and the output's buffer ends at the covering pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA_eq]
  unfold outsAt
  unfold out3
  iintro ⟨⟨HS, HR⟩, Ho, ⟨%d0, H0⟩, ⟨%d1, H1⟩, ⟨%d2, H2⟩⟩
  iapply ((kernelRun c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%e4, H4⟩⟩
  isplitl [H4 HR]
  · isplitl [H4]
    · unfold owns; iexists _, _; isplitr
      swap; · iexact H4
      ipureintro; rfl
    · iexact HR
  isplitl [Ho]; · iexact Ho
  isplitl [H0]; · iexact H0
  isplitl [H1]; · iexact H1
  unfold owns; iexists _; isplitr
  swap; · iexact H2
  ipureintro; exact View.read_writes_of_cover _ _ _ _ _ (cover3 c _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    each window's array at what the bookkeeping computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Entry

end
-- ==== Proof.IdealEntry.lean ====
/-
  The program up to its pipelined region, and what the region's run gives back.

  @main is one host operation — the three weight matrices [384, 64] laid side by side into one [384, 192] array —
  followed by the region. `V` is each buffer's contents when the region is entered (the launch contents, with the
  concatenated array written); no host operation writes an argument array, so the region finds the arguments as
  launched. A window's block at a grid point is its array read through the point's rectangle (`iblk`): the input
  windows hold exactly that when the body runs, whether the point fetched them or not (the weights are fetched at
  the first point only, and their block never moves). From a run that ends with every window's array at what the
  pipeline's bookkeeping computes and every other buffer untouched, the four argument arrays end as launched.
-/
import proofs.«151432_j62749472194710_2_alg».proof.Proof.Gen.KernelIdeal.Launch
import proofs.«151432_j62749472194710_2_alg».proof.Proof.Gen.KernelIdeal.Skeleton
import proofs.«151432_j62749472194710_2_alg».proof.Proof.Gen.KernelIdeal.Loops
import proofs.«151432_j62749472194710_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the concatenation. -/
abbrev V (c : Dev nD) (b : Ref sig .tc) : Buf (Elt F) ((c : Thread nD τ).loc b) :=
  StableHlo.after (hostOps0 (F := F)) (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its result only: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`: its array, as the region finds it, read through the point's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input `x`'s staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the whole concatenated array at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From a run that leaves each window's array at what the pipeline's bookkeeping computes (an input's: its entry
    contents) and every other unscoped buffer as the region found it, the four argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The memrefs the body is called on -/

/-- One staging buffer of the output window, through which its contents are stated (the choice does not matter). -/
abbrev VO : View sig .tc .vmem S16x256x64 .f32 := (Memref.whole cc0_stg2_0 : Memref sig .tc .vmem S16x256x64 .f32).view
/-- Each window's current staging memref at point `t`, as the pipeline passes it, and its wholeness. -/
abbrev ms0 (t : Fin cfg0.N) : Memref sig .tc .vmem S16x256x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256x64 .f32 := win0_2.stage (cfg0.slots t 2)
abbrev hs2 (t : Fin cfg0.N) : (ms2 t).IsWhole := hstage0_2 ((cfg0.slots t 2).cast nbuf0_2)
/-- The kernel's scratch (the projections of the point's sixteen sequences), a whole buffer of its own. -/
abbrev scM : Memref sig .tc .vmem S16x256x192 .bf16 := Memref.whole cc0_scratch0

/-- The region's invariant between points: the scratch owned at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Entry

end
-- ==== Proof.IdealBody.lean ====
/-
  One grid point's body, run once on any whole staging memrefs.

  The body reads the point's block of `x` (sixteen sequences) and the concatenated weights, writes the projections of
  all sixteen sequences into its scratch in one store that covers it, and then, sequence by sequence (a counted loop
  of sixteen trips), reads that sequence's row of the scratch and writes that sequence's row of the output block.
  It also reads the scratch and each output row before overwriting them; those values are not used.
  So the inputs are left as found, and the output's and the scratch's buffers end as lists of stored pieces written
  over whatever they held: the lists are what the run finds.
-/
import proofs.«151432_j62749472194710_2_alg».proof.Proof.IdealEntry

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging memref (`L3`) and in the scratch (`LS`), as pieces (last
    first), with the proof that on whole memrefs — the inputs' at their contents, the output's and the scratch's at
    anything — the body runs to its continuation holding the inputs as they were and the two written buffers with
    their pieces written. -/
noncomputable def kernelRun (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) :
    Σ' (L3 : List (View.Piece (Elt F) S16x256x64 .f32)), { LS : List (View.Piece (Elt F) S16x256x192 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__attn_kernel i arg1 harg1 arg2 harg2 arg3 harg3 arg4 harg4) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    iexists _; iexact H4

end Cert.KernelIdeal.Entry

end
-- ==== Proof.IdealFrame.lean ====
/-
  The pipelined region's run, point by point, and the frame it gives.

  At grid point `t` the body is handed the point's block of `x` (sixteen sequences) and the concatenated weights, and
  leaves in the output's staging buffer sixteen stored rows — one per sequence, together tiling the block — so what the
  buffer holds afterwards does not depend on what it held before: it is the stored pieces read back (`outsAt`). The
  scratch is the kernel's own and is rewritten at every point, so between points it is only owned, at some contents.
  With this bookkeeping the pipeline library's launch theorem gives the run of @main: it terminates, nothing faults,
  every window's array ends at what the bookkeeping computes, and every other buffer is untouched; in particular the
  argument arrays end as launched.
-/
import proofs.«151432_j62749472194710_2_alg».proof.Proof.IdealBody

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The sixteen stored rows tile the output block (each a [1, 256, 64] row at its own sequence), so they cover it. -/
theorem cover3 (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) (y : S16x256x64.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S1x256x64.size (by sl_kernel_rfl) y

/-- What the run leaves in the output's staging buffer: its pieces read back over junk. -/
def out3 (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) : Vec F S16x256x64 .f32 :=
  VO.read (Elt F) (VO.writes (Elt F) VO.junk (kernelRun c i arg1 harg1 arg2 harg2 arg3 harg3 arg4 harg4 x0 x1).1)

/-! ## What the output holds after each point -/

/-- The output's staging buffer after the body at point `t`: the run's contents at the point's memrefs and input blocks. -/
def outsAt (c : Dev nD) (t : Fin cfg0.N) : Vec F S16x256x64 .f32 :=
  out3 c (grid0.coords t) (ms0 t) (hs0 t) (ms1 t) (hs1 t) (ms2 t) (hs2 t) scM (Memref.isWhole_whole _) (iblk m c 0 t) (iblk m c 1 t)

/-! ## The pipeline's bookkeeping -/

/-- On core `c`: the arrays as the region finds them; after the body at point `t` each input's buffer at its block
    and the output's at `outsAt`; between points the scratch owned at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' memrefs hold their blocks, the scratch comes out of the invariant and goes
    back into it at its new contents, and the output's buffer ends at the covering pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA_eq]
  unfold outsAt
  unfold out3
  iintro ⟨⟨HS, HR⟩, Ho, ⟨%d0, H0⟩, ⟨%d1, H1⟩, ⟨%d2, H2⟩⟩
  iapply ((kernelRun c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%e4, H4⟩⟩
  isplitl [H4 HR]
  · isplitl [H4]
    · unfold owns; iexists _, _; isplitr
      swap; · iexact H4
      ipureintro; rfl
    · iexact HR
  isplitl [Ho]; · iexact Ho
  isplitl [H0]; · iexact H0
  isplitl [H1]; · iexact H1
  unfold owns; iexists _; isplitr
  swap; · iexact H2
  ipureintro; exact View.read_writes_of_cover _ _ _ _ _ (cover3 c _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    each window's array at what the bookkeeping computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Entry

end
-- ==== Proof.IdealBlock.lean ====
/-
  What one grid point leaves in the output block, as one function of the point's input blocks.

  The body stores the fused projections of the point's sixteen sequences into its scratch, and trip `n` of its loop
  stores, at row `n` of the output block, the per-sequence attention arithmetic applied to row `n` of that scratch.
  So the sixteen stored rows all restrict ONE function of the block index `(n, r, h)`: the per-sequence arithmetic of
  row `n` of the projections, at `(r, h)`. Since the rows tile the block, the block read back is that function.
-/
import proofs.«151432_j62749472194710_2_alg».proof.Proof.IdealFrame
import Idealize.ShloMosaic.Lib.Pipeline.Value
import Idealize.ShloMosaic.Lib.ValueIdx

set_option maxRecDepth 16384

noncomputable section

namespace Cert.KernelIdeal.Entry

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- The loop runs sixteen trips, one per sequence of the block. -/
theorem trips_eq : k0_t1_loop.trips = 16 := by decide

/-- Row `n` of the projections `[16, 256, 192]`, as the `[1, 256, 192]` vector a trip loads. -/
def projRow (P : Vec F S16x256x192 .bf16) (n : Fin 16) : Vec F S1x256x192 .bf16 := fun x => P (ix3 n (x 1) (x 2))

/-- The output block as one function of the input blocks: at `(n, r, h)`, the per-sequence arithmetic of row `n` of
    the fused projections, at `(r, h)`. -/
def blockOf (x0 : Vec F S16x256x384 .f32) (x1 : Vec F S384x192 .f32) : Vec F S16x256x64 .f32 := fun y =>
  k0_pay2 (projRow (k0_pay1 x0 x1) (y 0)) (ix3 (0 : Fin 1) (y 1) (y 2))

/-- After the projection store the scratch reads as the fused projections of the two input blocks. -/
theorem scratch_read (c : Dev nD) (arg1 : Memref sig .tc .vmem S16x256x384 .f32) (harg1 : arg1.IsWhole) (arg2 : Memref sig .tc .vmem S384x192 .f32) (harg2 : arg2.IsWhole)
    (arg4 : Memref sig .tc .vmem S16x256x192 .bf16) (x0 : Vec F S16x256x384 .f32) (x1 : Vec F S384x192 .f32) :
    arg4.view.read (Elt F) (arg4.view.writes (Elt F) arg4.view.junk (kernelRun.sl.H4_1 c arg1 harg1 arg2 harg2 x0 x1)) = k0_pay1 x0 x1 := by
  unfold kernelRun.sl.H4_1
  rw [View.read_writes_eq_canon _ _ _ (fun y => ⟨_, List.mem_singleton_self _, View.mem_set_unit_zero hz3 inb_S16x256x192_S16x256x192_0_0_0 y⟩)]
  rw [View.canon_unit_zero hz3]
  simp only [View.readAt_eq_ld, harg1.read_unread, harg2.read_unread, View.ld_unit_zero (S := S16x256x384) hz3,
    View.ld_unit_zero (S := S384x192) hz2]

/-- Trip `k` stores one piece: the per-sequence arithmetic of the scratch row it loaded, at output row `k`. -/
theorem trip_pieces (𝒱 : Variants) (c : Dev nD) (bd : Option 𝒱.V) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole) (X : BufTy.Contents (Elt F) arg4.view.ty) (k : Fin k0_t1_loop.trips) :
    tripL_k0_t1 (F := F) 𝒱 c bd i arg1 harg1 arg2 harg2 arg3 harg3 arg4 harg4 X k
      = [⟨Rect.unit (k0_off2 k) S1x256x64.size (k0_off2_inb k),
          k0_pay2 (View.readAt (Elt F) arg4.view (Rect.unit (s := S16x256x192) (k0_off1 k) S1x256x192.size (k0_off1_inb k)).toLoadRect X)⟩] := by
  unfold tripL_k0_t1 trip_k0_t1
  rfl

/-- Every piece of the trips before `K` restricts `blockOf`: its payload at a local index is `blockOf` at the
    index's place in the block. -/
theorem pieces_restrict (𝒱 : Variants) (c : Dev nD) (bd : Option 𝒱.V) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) (X : BufTy.Contents (Elt F) arg4.view.ty)
    (hX : arg4.view.read (Elt F) X = k0_pay1 x0 x1) :
    ∀ K : ℕ, K ≤ k0_t1_loop.trips → ∀ p ∈ pb_k0_t1 (F := F) 𝒱 c bd i arg1 harg1 arg2 harg2 arg3 harg3 arg4 harg4 X K,
      ∀ x : p.1.shape.Idx, p.2 x = blockOf x0 x1 (p.1.emb x) := by
  intro K
  induction K with
  | zero => intro _ p hp; simp [pb_k0_t1] at hp
  | succ K ih =>
    intro hK p hp x
    have hKlt : K < k0_t1_loop.trips := hK
    have hK16 : K < 16 := trips_eq ▸ hKlt
    have hs := pb_k0_t1_succ (F := F) 𝒱 c bd i arg1 harg1 arg2 harg2 arg3 harg3 arg4 harg4 X ⟨K, hKlt⟩
    rw [show (⟨K, hKlt⟩ : Fin k0_t1_loop.trips).val + 1 = K + 1 from rfl, trip_pieces] at hs
    rw [hs] at hp
    rcases List.mem_append.mp hp with hp | hp
    · obtain rfl := List.mem_singleton.mp hp
      -- the loaded scratch row is row K of the projections
      have hrow : View.readAt (Elt F) arg4.view (Rect.unit (s := S16x256x192) (k0_off1 ⟨K, hKlt⟩) S1x256x192.size (k0_off1_inb ⟨K, hKlt⟩)).toLoadRect X
          = projRow (k0_pay1 x0 x1) ⟨K, hK16⟩ := by
        funext z
        rw [View.readAt_apply, hX]
        unfold projRow
        congr 1
        funext a
        apply Fin.ext
        have e0 : k0_off1 ⟨K, hKlt⟩ 0 = K := congrFun (k0_off1_eq ⟨K, hKlt⟩) 0
        have e1 : k0_off1 ⟨K, hKlt⟩ 1 = 0 := congrFun (k0_off1_eq ⟨K, hKlt⟩) 1
        have e2 : k0_off1 ⟨K, hKlt⟩ 2 = 0 := congrFun (k0_off1_eq ⟨K, hKlt⟩) 2
        match a with
        | ⟨0, _⟩ => show k0_off1 ⟨K, hKlt⟩ 0 + 1 * (z 0).val = K; have : (z 0).val < 1 := (z 0).isLt; omega
        | ⟨1, _⟩ => show k0_off1 ⟨K, hKlt⟩ 1 + 1 * (z 1).val = (z 1).val; omega
        | ⟨2, _⟩ => show k0_off1 ⟨K, hKlt⟩ 2 + 1 * (z 2).val = (z 2).val; omega
      show k0_pay2 _ x = _
      rw [hrow]
      unfold blockOf
      have f0 : k0_off2 ⟨K, hKlt⟩ 0 = K := congrFun (k0_off2_eq ⟨K, hKlt⟩) 0
      have f1 : k0_off2 ⟨K, hKlt⟩ 1 = 0 := congrFun (k0_off2_eq ⟨K, hKlt⟩) 1
      have f2 : k0_off2 ⟨K, hKlt⟩ 2 = 0 := congrFun (k0_off2_eq ⟨K, hKlt⟩) 2
      have h0 : ((Rect.unit (s := S16x256x64) (k0_off2 ⟨K, hKlt⟩) S1x256x64.size (k0_off2_inb ⟨K, hKlt⟩)).emb x) 0 = ⟨K, hK16⟩ := by
        apply Fin.ext
        show k0_off2 ⟨K, hKlt⟩ 0 + 1 * (x 0).val = K
        have : (x 0).val < 1 := (x 0).isLt; omega
      have hx : x = ix3 (0 : Fin 1) (((Rect.unit (s := S16x256x64) (k0_off2 ⟨K, hKlt⟩) S1x256x64.size (k0_off2_inb ⟨K, hKlt⟩)).emb x) 1)
          (((Rect.unit (s := S16x256x64) (k0_off2 ⟨K, hKlt⟩) S1x256x64.size (k0_off2_inb ⟨K, hKlt⟩)).emb x) 2) := by
        funext a
        apply Fin.ext
        match a with
        | ⟨0, _⟩ => show (x 0).val = 0; have : (x 0).val < 1 := (x 0).isLt; omega
        | ⟨1, _⟩ => show (x 1).val = k0_off2 ⟨K, hKlt⟩ 1 + 1 * (x 1).val; omega
        | ⟨2, _⟩ => show (x 2).val = k0_off2 ⟨K, hKlt⟩ 2 + 1 * (x 2).val; omega
      rw [h0]
      exact congrArg _ hx
    · exact ih (Nat.le_of_succ_le hK) p hp x

/-- The block the body leaves is `blockOf` of the point's input blocks. -/
theorem out3_eq (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x192 .bf16) (harg4 : arg4.IsWhole)
    (x0 : Vec F S16x256x384 .f32) (x1 : Vec F S384x192 .f32) :
    out3 c i arg1 harg1 arg2 harg2 arg3 harg3 arg4 harg4 x0 x1 = blockOf x0 x1 := by
  funext y
  unfold out3
  rw [View.read_writes_apply_eq_canon VO VO.junk y _ (cover3 c i arg1 harg1 arg2 harg2 arg3 harg3 arg4 harg4 x0 x1 y)]
  refine View.canon_apply_of_pieces (blockOf x0 x1) _ ?_ y (cover3 c i arg1 harg1 arg2 harg2 arg3 harg3 arg4 harg4 x0 x1 y)
  unfold kernelRun
  dsimp only
  exact pieces_restrict Variants.none c none i arg1 harg1 arg2 harg2 arg3 harg3 arg4 harg4 x0 x1 _
    (scratch_read c arg1 harg1 arg2 harg2 arg4 x0 x1) _ (le_of_eq rfl)

end Cert.KernelIdeal.Entry

end
-- ==== Proof.ProjPayload.lean ====
/-
  The fused projection of the attention kernel, read at one entry.

  The kernel flattens the block of inputs x : [16, 256, 384] to 4096 rows, multiplies the rows by the concatenated weight
  w : [384, 192] into a zero accumulator, and lays the 4096 rows of the product out again as [16, 256, 192]. Row
  n * 256 + t of the flattened block is row t of sequence n, the changes of format are the identity on the extended
  reals, and the matrix product into zero is the plain sum over the contracted coordinate, so entry (n, t, j) of the
  result is  ∑ c, x[n, t, c] * w[c, j].
-/
import proofs.«151432_j62749472194710_2_alg».proof.Proof.Gen.KernelIdeal.Skeleton
import Idealize.ShloMosaic.Lib.ValueLayout
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

variable {α : Type}

/-- Flattening [16, 256, 384] to [4096, 384] keeps the row-major position: row n * 256 + t of the flat array, at column
    c, is entry (n, t, c). -/
theorem flatten_apply (x : S16x256x384.Idx → α) (h : S16x256x384.ShapeCasts S4096x384)
    (n : Fin 16) (t : Fin 256) (c : Fin 384) :
    shapeCast S4096x384 x h (ix2 (⟨n.val * 256 + t.val, by omega⟩ : Fin 4096) c) = x (ix3 n t c) :=
  shapeCast_apply x h _ _ (by
    rw [Shape.rowMajor_val_three, Shape.rowMajor_val_two]
    rfl)

/-- Cutting the 4096 rows of a [4096, 192] array into 16 groups of 256: entry (n, t, j) is row n * 256 + t at column j. -/
theorem unflatten_apply (x : S4096x192.Idx → α) (h : S4096x192.ShapeCasts S16x256x192)
    (n : Fin 16) (t : Fin 256) (j : Fin 192) :
    shapeCast S16x256x192 x h (ix3 n t j) = x (ix2 (⟨n.val * 256 + t.val, by omega⟩ : Fin 4096) j) :=
  shapeCast_apply x h _ _ (by
    rw [Shape.rowMajor_val_three, Shape.rowMajor_val_two]
    rfl)

/-- In the projection's product the left operand's row is the result's row … -/
theorem projLhs_row (i : S4096x192.Idx) (q : dot_S4096x384_S384x192_S4096x192_1_0_0_1_n_n.contr.Idx) :
    (dot_S4096x384_S384x192_S4096x192_1_0_0_1_n_n.lhsIdx i q 0).val = (i 0).val := by
  unfold DotDims.lhsIdx
  rw [dif_neg (show ¬(0 : Fin S4096x384.rank) ∈ dot_S4096x384_S384x192_S4096x192_1_0_0_1_n_n.lhsBatch by decide),
    dif_pos (show (0 : Fin S4096x384.rank) ∈ dot_S4096x384_S384x192_S4096x192_1_0_0_1_n_n.lhsNonContracting by decide)]
  rfl

/-- … and the right operand's column is the result's column. -/
theorem projRhs_col (i : S4096x192.Idx) (q : dot_S4096x384_S384x192_S4096x192_1_0_0_1_n_n.contr.Idx) :
    (dot_S4096x384_S384x192_S4096x192_1_0_0_1_n_n.rhsIdx i q 1).val = (i 1).val := by
  unfold DotDims.rhsIdx
  rw [dif_neg (show ¬(1 : Fin S384x192.rank) ∈ dot_S4096x384_S384x192_S4096x192_1_0_0_1_n_n.rhsBatch by decide),
    dif_pos (show (1 : Fin S384x192.rank) ∈ dot_S4096x384_S384x192_S4096x192_1_0_0_1_n_n.rhsNonContracting by decide)]
  rfl

/-- The projection's matrix product into a zero accumulator, at row r and column j: the sum over the contracted
    coordinate c of the left operand at (r, c) times the right operand at (c, j). -/
theorem projMatmul_apply (a : FVec Ideal S4096x384 .bf16) (b : FVec Ideal S384x192 .bf16) (r : Fin 4096) (j : Fin 192) :
    matmul dot_S4096x384_S384x192_S4096x192_1_0_0_1_n_n none a b (constant (F := Ideal) S4096x192 .f32 0x00000000#32) (ix2 r j)
      = ∑ c : Fin 384, a (ix2 r c) * b (ix2 c j) := by
  refine (Ideal.matmul_constant_zero_apply dot_S4096x384_S384x192_S4096x192_1_0_0_1_n_n none a b (ix2 r j)).trans ?_
  rw [← Equiv.sum_comp (contrEquiv1 dot_S4096x384_S384x192_S4096x192_1_0_0_1_n_n 384 rfl rfl).symm]
  refine Finset.sum_congr rfl fun c _ => ?_
  have hc := contrEquiv1_symm_val dot_S4096x384_S384x192_S4096x192_1_0_0_1_n_n 384 rfl rfl c
  have el : dot_S4096x384_S384x192_S4096x192_1_0_0_1_n_n.lhsIdx (ix2 r j)
      ((contrEquiv1 dot_S4096x384_S384x192_S4096x192_1_0_0_1_n_n 384 rfl rfl).symm c) = ix2 r c :=
    funext fun ax => Fin.ext (by
      match ax with
      | ⟨0, _⟩ => exact projLhs_row _ _
      | ⟨1, _⟩ => exact (dot_S4096x384_S384x192_S4096x192_1_0_0_1_n_n.lhsIdx_val_of_single rfl (ix2 r j) _).trans hc)
  have er : dot_S4096x384_S384x192_S4096x192_1_0_0_1_n_n.rhsIdx (ix2 r j)
      ((contrEquiv1 dot_S4096x384_S384x192_S4096x192_1_0_0_1_n_n 384 rfl rfl).symm c) = ix2 c j :=
    funext fun ax => Fin.ext (by
      match ax with
      | ⟨0, _⟩ => exact (dot_S4096x384_S384x192_S4096x192_1_0_0_1_n_n.rhsIdx_val_of_single rfl (ix2 r j) _).trans hc
      | ⟨1, _⟩ => exact projRhs_col _ _)
  rw [el, er]

/-- THE FUSED PROJECTION AT AN ENTRY: position t of sequence n against column j of the concatenated weight. -/
theorem pay1_apply (v0 : Vec Ideal S16x256x384 .f32) (v2 : Vec Ideal S384x192 .f32) (n : Fin 16) (t : Fin 256) (j : Fin 192) :
    Gen.k0_pay1 (F := Ideal) v0 v2 (ix3 n t j) = ∑ c : Fin 384, v0 (ix3 n t c) * v2 (ix2 c j) := by
  unfold Gen.k0_pay1
  rw [shapeCast_self]
  refine (unflatten_apply _ shapeCasts_S4096x192_S16x256x192 n t j).trans ?_
  refine (truncf_apply _ bitsLt_bf16_f32 _).trans ?_
  refine (projMatmul_apply _ _ _ j).trans ?_
  refine Finset.sum_congr rfl fun c _ => ?_
  rw [flatten_apply _ shapeCasts_S16x256x384_S4096x384 n t c, shapeCast_self]
  rfl

end Cert.KernelIdeal.PayValue

end
-- ==== Proof.Spec.lean ====
/-
  Causal single-head attention over one batch of sequences, as ONE function of the four argument arrays on the
  extended reals: `x : [512, 256, 384]` (batch, position, embedding) and three weights `[384, 64]`.

  For one sequence with query, key and value rows `Q K V : position → head coordinate → EReal`: the score of query
  position `q` against key position `k` is `(∑ h, Q[q,h] · K[k,h]) · scale`; a key after the query is masked to `⊥`
  (−∞); the row is shifted by its maximum, exponentiated (`e^⊥ = 0`), normalised by its sum, and the output is the
  normalised row against the values: `out[q,h] = ∑ k, (e^{s[q,k] − max_q} / ∑ k', e^{s[q,k'] − max_q}) · V[k,h]`.
  For batch row `b` the three are the projections `proj x w b t h = ∑ c, x[b,t,c] · w[c,h]`.

  Nothing here is evaluated: the scale is the one f32 word both programs carry, and every step is the extended reals'
  own operation, so the function is total (no finiteness is asked of the inputs).
-/
import Idealize.ShloMosaic.PureOps.Ideal
import Idealize.ShloMosaic.Lib.ValueIdx

noncomputable section

open scoped BigOperators

namespace Cert.CausalAttn

open Idealize.ShloMosaic Idealize.ShloMosaic.ValueIdx

/-- The shapes of the input `x`, of a weight, and of the result. -/
abbrev XS : Shape := ⟨3, ![512, 256, 384]⟩
abbrev WS : Shape := ⟨2, ![384, 64]⟩
abbrev OS : Shape := ⟨3, ![512, 256, 64]⟩

/-- The factor the scores are multiplied by: the f32 word `0x3D5105EC` (the nearest f32 to 384^(-1/2)), read as
    the extended real it denotes. Both programs carry this same word, so its value is never needed. -/
def scale : EReal := Ideal.ofBits .f32 0x3D5105EC#32

/-! ## One sequence -/

section Seq

variable (Q K V : Fin 256 → Fin 64 → EReal)

/-- The scaled score of query position `q` against key position `k`. -/
def score (q k : Fin 256) : EReal := (∑ h : Fin 64, Q q h * K k h) * scale

/-- The causal mask: a key position after the query's scores `⊥`. -/
def masked (q k : Fin 256) : EReal := if k.val ≤ q.val then score Q K q k else ⊥

/-- The maximum of a masked row (the fold of `max` from `⊥` over the key positions). -/
def rowMax (q : Fin 256) : EReal := (Finset.univ : Finset (Fin 256)).fold max ⊥ (fun k => masked Q K q k)

/-- The unnormalised weight of key `k` for query `q`. -/
def weight (q k : Fin 256) : EReal := Ideal.exp (masked Q K q k - rowMax Q K q)

/-- The row's normaliser. -/
def denom (q : Fin 256) : EReal := ∑ k : Fin 256, weight Q K q k

/-- One sequence's attention output at query position `q`, head coordinate `h`. -/
def attnSeq (q : Fin 256) (h : Fin 64) : EReal :=
  ∑ k : Fin 256, Ideal.div (weight Q K q k) (denom Q K q) * V k h

end Seq

/-! ## The batch -/

/-- A projection: position `t` of batch row `b` against column `h` of a weight. -/
def proj (x : XS.Idx → EReal) (w : WS.Idx → EReal) (b : Fin 512) (t : Fin 256) (h : Fin 64) : EReal :=
  ∑ c : Fin 384, x (ix3 b t c) * w (ix2 c h)

/-- The attention output, entry by entry: batch row `i 0`'s sequence, at query `i 1` and head coordinate `i 2`. -/
def attn (x : XS.Idx → EReal) (wq wk wv : WS.Idx → EReal) : OS.Idx → EReal := fun i =>
  attnSeq (proj x wq (i 0)) (proj x wk (i 0)) (proj x wv (i 0)) (i 1) (i 2)

end Cert.CausalAttn

end
-- ==== Proof.SeqPayload.lean ====
/-
  The pieces of one sequence's attention in the kernel, each read at an entry.

  For one sequence the kernel holds the masked scores as a [256, 256] array (row = query position, column = key
  position). Read at an entry: the causal condition "row coordinate ≥ column coordinate" as a signed comparison of two
  32-bit words below 256 is the bit of k ≤ q; a row's maximum is the fold of max from ⊥ over the row, a row's sum the
  sum over the row, and such a row statistic, kept as a [256, 1] column and broadcast along the row, reads the same at
  every column; the two matrix products into zero are the plain sums over the contracted coordinate; the three slices
  of the [256, 192] projection row are its columns 0 … 63, 64 … 127 and 128 … 191.
-/
import proofs.«151432_j62749472194710_2_alg».proof.Proof.Gen.KernelIdeal.Skeleton
import proofs.«151432_j62749472194710_2_alg».proof.Proof.Spec
import Idealize.ShloMosaic.Lib.ValueLayout
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

variable {α : Type}

/-! ## The causal condition -/

/-- A natural number below 256, as a 32-bit word read signed, is itself. -/
theorem toInt_ofNat_lt (n : Nat) (hn : n < 256) : (BitVec.ofNat 32 n).toInt = (n : Int) := by
  have hm : (BitVec.ofNat 32 n).toNat = n := by
    rw [BitVec.toNat_ofNat]; exact Nat.mod_eq_of_lt (by omega)
  rw [BitVec.toInt_eq_toNat_of_lt (by rw [hm]; omega), hm]

/-- The signed comparison "q ≥ k" of two positions, as words, is the bit of k ≤ q. -/
theorem sge_ofNat (q k : Fin 256) :
    IntOp.cmpi .sge (BitVec.ofNat 32 q.val) (BitVec.ofNat 32 k.val) = if k.val ≤ q.val then 1#1 else 0#1 := by
  show BitVec.ofBool ((BitVec.ofNat 32 k.val).sle (BitVec.ofNat 32 q.val)) = _
  rw [BitVec.sle, toInt_ofNat_lt k.val k.isLt, toInt_ofNat_lt q.val q.isLt]
  by_cases h : k.val ≤ q.val
  · rw [if_pos h, decide_eq_true (by omega)]; rfl
  · rw [if_neg h, decide_eq_false (by omega)]; rfl

/-- The kernel's causal condition at (q, k): row coordinate against column coordinate. -/
theorem causal_apply (q k : Fin 256) :
    cmpi .sge (iota .tc S256x256 32 [0] iota_S256x256_d0_w32) (iota .tc S256x256 32 [1] iota_S256x256_d1_w32) (ix2 q k)
      = if k.val ≤ q.val then 1#1 else 0#1 := by
  show IntOp.cmpi .sge (iota .tc S256x256 32 [0] iota_S256x256_d0_w32 (ix2 q k))
    (iota .tc S256x256 32 [1] iota_S256x256_d1_w32 (ix2 q k)) = _
  rw [iota_single_apply, iota_single_apply]
  exact sge_ofNat q k

/-! ## A row statistic kept as a column and broadcast along the row -/

/-- A [256] vector viewed as a [256, 1] column and broadcast to [256, 256] reads, at (q, k), the vector at q. -/
theorem keepdims_apply (v : S256.Idx → α) (q k : Fin 256) :
    broadcastTo S256x256 (shapeCast S256x1 v shapeCasts_S256_S256x1) broadcasts_S256x1_S256x256 (ix2 q k) = v (ix1 q) := by
  refine (broadcastTo_apply _ broadcasts_S256x1_S256x256 (ix2 q k) (ix2 q (0 : Fin 1)) fun ax => ?_).trans ?_
  · match ax with
    | ⟨0, _⟩ => show q.val = if (256 : Nat) = 1 then 0 else q.val; rw [if_neg (by decide)]
    | ⟨1, _⟩ => show 0 = if (1 : Nat) = 1 then 0 else k.val; rw [if_pos rfl]
  · exact shapeCast_apply v shapeCasts_S256_S256x1 _ _ (by
      rw [Shape.rowMajor_val_one, Shape.rowMajor_val_two]
      show q.val = q.val * 1 + 0
      omega)

/-! ## A row's maximum and a row's sum -/

/-- The f32 word of −∞ is ⊥. -/
theorem ofBits_negInf : Ideal.ofBits .f32 0xFF800000#32 = ⊥ := by simp [Ideal.ofBits, Ideal.ieee]

/-- Inserting the column coordinate k into the row index q gives the entry (q, k). -/
theorem lift_row (q k : Fin 256) : reduces_S256x256_S256.lift (ix1 q) k = ix2 q k :=
  funext fun ax => Fin.ext (by match ax with | ⟨0, _⟩ => rfl | ⟨1, _⟩ => rfl)

/-- The reduction by maximum along the row, from the word of −∞: the fold of max from ⊥ over the row's entries. -/
theorem rowMax_apply (s : FVec Ideal S256x256 .f32) (q : Fin 256) :
    multiReduction (F := Ideal) .maximumf [1] S256 s 0xFF800000#32 reduces_S256x256_S256 (.inl rfl) rfl (ix1 q)
      = (Finset.univ : Finset (Fin 256)).fold max ⊥ (fun k => s (ix2 q k)) := by
  refine (Ideal.multiReduction_maximumf_single s 0xFF800000#32 reduces_S256x256_S256 (.inl rfl) rfl (ix1 q)).trans ?_
  have hl : (s ∘ reduces_S256x256_S256.lift (ix1 q)) = fun k : Fin 256 => s (ix2 q k) :=
    funext fun k => congrArg s (lift_row q k)
  rw [hl]
  exact congrArg (fun b => (Finset.univ : Finset (Fin 256)).fold max b (fun k => s (ix2 q k))) ofBits_negInf

/-- The reduction by addition along the row, from zero: the sum of the row's entries. -/
theorem rowSum_apply (p : FVec Ideal S256x256 .f32) (q : Fin 256) :
    multiReduction (F := Ideal) .add [1] S256 p 0x00000000#32 reduces_S256x256_S256 (.inl rfl) rfl (ix1 q)
      = ∑ k : Fin 256, p (ix2 q k) := by
  refine (Ideal.multiReduction_add_single p 0x00000000#32 reduces_S256x256_S256 (.inl rfl) rfl (ix1 q)).trans ?_
  exact Finset.sum_congr rfl fun k _ => congrArg p (lift_row q k)

/-! ## The two matrix products -/

/-- In the score product the left operand's row is the result's row … -/
theorem scoreLhs_row (i : S256x256.Idx) (c : dot_S256x64_S64x256_S256x256_1_0_0_1_n_n.contr.Idx) :
    (dot_S256x64_S64x256_S256x256_1_0_0_1_n_n.lhsIdx i c 0).val = (i 0).val := by
  unfold DotDims.lhsIdx
  rw [dif_neg (show ¬(0 : Fin S256x64.rank) ∈ dot_S256x64_S64x256_S256x256_1_0_0_1_n_n.lhsBatch by decide),
    dif_pos (show (0 : Fin S256x64.rank) ∈ dot_S256x64_S64x256_S256x256_1_0_0_1_n_n.lhsNonContracting by decide)]
  rfl

/-- … and the right operand's column is the result's column. -/
theorem scoreRhs_col (i : S256x256.Idx) (c : dot_S256x64_S64x256_S256x256_1_0_0_1_n_n.contr.Idx) :
    (dot_S256x64_S64x256_S256x256_1_0_0_1_n_n.rhsIdx i c 1).val = (i 1).val := by
  unfold DotDims.rhsIdx
  rw [dif_neg (show ¬(1 : Fin S64x256.rank) ∈ dot_S256x64_S64x256_S256x256_1_0_0_1_n_n.rhsBatch by decide),
    dif_pos (show (1 : Fin S64x256.rank) ∈ dot_S256x64_S64x256_S256x256_1_0_0_1_n_n.rhsNonContracting by decide)]
  rfl

/-- The score product into a zero accumulator at (q, k): the sum over the head coordinate h of the left operand at
    (q, h) times the right operand at (h, k). -/
theorem scoreMatmul_apply (a : FVec Ideal S256x64 .bf16) (b : FVec Ideal S64x256 .bf16) (q k : Fin 256) :
    matmul dot_S256x64_S64x256_S256x256_1_0_0_1_n_n none a b (constant (F := Ideal) S256x256 .f32 0x00000000#32) (ix2 q k)
      = ∑ h : Fin 64, a (ix2 q h) * b (ix2 h k) := by
  refine (Ideal.matmul_constant_zero_apply dot_S256x64_S64x256_S256x256_1_0_0_1_n_n none a b (ix2 q k)).trans ?_
  rw [← Equiv.sum_comp (contrEquiv1 dot_S256x64_S64x256_S256x256_1_0_0_1_n_n 64 rfl rfl).symm]
  refine Finset.sum_congr rfl fun h _ => ?_
  have hh := contrEquiv1_symm_val dot_S256x64_S64x256_S256x256_1_0_0_1_n_n 64 rfl rfl h
  have el : dot_S256x64_S64x256_S256x256_1_0_0_1_n_n.lhsIdx (ix2 q k)
      ((contrEquiv1 dot_S256x64_S64x256_S256x256_1_0_0_1_n_n 64 rfl rfl).symm h) = ix2 q h :=
    funext fun ax => Fin.ext (by
      match ax with
      | ⟨0, _⟩ => exact scoreLhs_row _ _
      | ⟨1, _⟩ => exact (dot_S256x64_S64x256_S256x256_1_0_0_1_n_n.lhsIdx_val_of_single rfl (ix2 q k) _).trans hh)
  have er : dot_S256x64_S64x256_S256x256_1_0_0_1_n_n.rhsIdx (ix2 q k)
      ((contrEquiv1 dot_S256x64_S64x256_S256x256_1_0_0_1_n_n 64 rfl rfl).symm h) = ix2 h k :=
    funext fun ax => Fin.ext (by
      match ax with
      | ⟨0, _⟩ => exact (dot_S256x64_S64x256_S256x256_1_0_0_1_n_n.rhsIdx_val_of_single rfl (ix2 q k) _).trans hh
      | ⟨1, _⟩ => exact scoreRhs_col _ _)
  rw [el, er]

/-- In the output product the left operand's row is the result's row … -/
theorem outLhs_row (i : S256x64.Idx) (c : dot_S256x256_S256x64_S256x64_1_0_0_1_n_n.contr.Idx) :
    (dot_S256x256_S256x64_S256x64_1_0_0_1_n_n.lhsIdx i c 0).val = (i 0).val := by
  unfold DotDims.lhsIdx
  rw [dif_neg (show ¬(0 : Fin S256x256.rank) ∈ dot_S256x256_S256x64_S256x64_1_0_0_1_n_n.lhsBatch by decide),
    dif_pos (show (0 : Fin S256x256.rank) ∈ dot_S256x256_S256x64_S256x64_1_0_0_1_n_n.lhsNonContracting by decide)]
  rfl

/-- … and the right operand's column is the result's column. -/
theorem outRhs_col (i : S256x64.Idx) (c : dot_S256x256_S256x64_S256x64_1_0_0_1_n_n.contr.Idx) :
    (dot_S256x256_S256x64_S256x64_1_0_0_1_n_n.rhsIdx i c 1).val = (i 1).val := by
  unfold DotDims.rhsIdx
  rw [dif_neg (show ¬(1 : Fin S256x64.rank) ∈ dot_S256x256_S256x64_S256x64_1_0_0_1_n_n.rhsBatch by decide),
    dif_pos (show (1 : Fin S256x64.rank) ∈ dot_S256x256_S256x64_S256x64_1_0_0_1_n_n.rhsNonContracting by decide)]
  rfl

/-- The output product into a zero accumulator at (q, h): the sum over the key position k of the left operand at
    (q, k) times the right operand at (k, h). -/
theorem outMatmul_apply (a : FVec Ideal S256x256 .bf16) (b : FVec Ideal S256x64 .bf16) (q : Fin 256) (h : Fin 64) :
    matmul dot_S256x256_S256x64_S256x64_1_0_0_1_n_n none a b (constant (F := Ideal) S256x64 .f32 0x00000000#32) (ix2 q h)
      = ∑ k : Fin 256, a (ix2 q k) * b (ix2 k h) := by
  refine (Ideal.matmul_constant_zero_apply dot_S256x256_S256x64_S256x64_1_0_0_1_n_n none a b (ix2 q h)).trans ?_
  rw [← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 q h)
      ((contrEquiv1 dot_S256x256_S256x64_S256x64_1_0_0_1_n_n 256 rfl rfl).symm k) = ix2 q k :=
    funext fun ax => Fin.ext (by
      match ax with
      | ⟨0, _⟩ => exact outLhs_row _ _
      | ⟨1, _⟩ => exact (dot_S256x256_S256x64_S256x64_1_0_0_1_n_n.lhsIdx_val_of_single rfl (ix2 q h) _).trans hk)
  have er : dot_S256x256_S256x64_S256x64_1_0_0_1_n_n.rhsIdx (ix2 q h)
      ((contrEquiv1 dot_S256x256_S256x64_S256x64_1_0_0_1_n_n 256 rfl rfl).symm k) = ix2 k h :=
    funext fun ax => Fin.ext (by
      match ax with
      | ⟨0, _⟩ => exact (dot_S256x256_S256x64_S256x64_1_0_0_1_n_n.rhsIdx_val_of_single rfl (ix2 q h) _).trans hk
      | ⟨1, _⟩ => exact outRhs_col _ _)
  rw [el, er]

/-! ## The three column blocks of a projection row -/

/-- Columns 0 … 63 of the [1, 256, 192] projection row, read at (t, a). -/
theorem qBlock_apply (x : S1x256x192.Idx → α) (t : Fin 256) (a : Fin 64) :
    extractStridedSlice S256x64 ![0, 0] (shapeCast S256x192 x shapeCasts_S1x256x192_S256x192) slices_S256x192_o0_0_S256x64 (ix2 t a)
      = x (ix3 (0 : Fin 1) t (⟨a.val, by omega⟩ : Fin 192)) := by
  refine (slice2_axis1_apply 0 _ slices_S256x192_o0_0_S256x64 t a (⟨a.val, by omega⟩ : Fin 192) (Nat.zero_add _).symm).trans ?_
  exact shapeCast_1ab_ab_apply x shapeCasts_S1x256x192_S256x192 t _

/-- Columns 64 … 127, transposed: read at (a, t). -/
theorem kBlock_apply (x : S1x256x192.Idx → α) (t : Fin 256) (a : Fin 64) :
    transpose S64x256 [1, 0]
        (extractStridedSlice S256x64 ![0, 64] (shapeCast S256x192 x shapeCasts_S1x256x192_S256x192) slices_S256x192_o0_64_S256x64)
        transposes_S256x64_p1_0_S64x256 (ix2 a t)
      = x (ix3 (0 : Fin 1) t (⟨64 + a.val, by omega⟩ : Fin 192)) := by
  refine (transpose_ix2_apply _ transposes_S256x64_p1_0_S64x256 a t).trans ?_
  refine (slice2_axis1_apply 64 _ slices_S256x192_o0_64_S256x64 t a (⟨64 + a.val, by omega⟩ : Fin 192) rfl).trans ?_
  exact shapeCast_1ab_ab_apply x shapeCasts_S1x256x192_S256x192 t _

/-- Columns 128 … 191, read at (t, a). -/
theorem vBlock_apply (x : S1x256x192.Idx → α) (t : Fin 256) (a : Fin 64) :
    extractStridedSlice S256x64 ![0, 128] (shapeCast S256x192 x shapeCasts_S1x256x192_S256x192) slices_S256x192_o0_128_S256x64 (ix2 t a)
      = x (ix3 (0 : Fin 1) t (⟨128 + a.val, by omega⟩ : Fin 192)) := by
  refine (slice2_axis1_apply 128 _ slices_S256x192_o0_128_S256x64 t a (⟨128 + a.val, by omega⟩ : Fin 192) rfl).trans ?_
  exact shapeCast_1ab_ab_apply x shapeCasts_S1x256x192_S256x192 t _

/-! ## The softmax, stage by stage -/

/-- THE MASKED SCORES: where the key position is not after the query's, the product's entry times the scale word;
    elsewhere the named constant, which denotes ⊥. Stated for operands whose entries are the rows Q and K. -/
theorem maskedScores_apply (a : FVec Ideal S256x64 .bf16) (b : FVec Ideal S64x256 .bf16) (Q K : Fin 256 → Fin 64 → EReal)
    (ha : ∀ t h, a (ix2 t h) = Q t h) (hb : ∀ t h, b (ix2 h t) = K t h) (q k : Fin 256) :
    select (cmpi .sge (iota .tc S256x256 32 [0] iota_S256x256_d0_w32) (iota .tc S256x256 32 [1] iota_S256x256_d1_w32))
        (mulf (matmul dot_S256x64_S64x256_S256x256_1_0_0_1_n_n none a b (constant (F := Ideal) S256x256 .f32 0x00000000#32))
          (broadcast S256x256 (Scalar.ofBits (F := Ideal) .f32 0x3D5105EC#32)))
        (broadcast S256x256 (Named.named (F := Ideal) κ "neg_big" (φ := .f32) 0xFF333332#32)) (ix2 q k)
      = Cert.CausalAttn.masked Q K q k := by
  refine (select_apply _ _ _ _).trans ?_
  rw [causal_apply]
  unfold Cert.CausalAttn.masked
  by_cases hle : k.val ≤ q.val
  · rw [if_pos hle, if_pos hle, select_one]
    refine (mulf_apply _ _ _).trans ?_
    rw [scoreMatmul_apply]
    unfold Cert.CausalAttn.score
    refine congrArg₂ (· * ·) (Finset.sum_congr rfl fun h _ => ?_) rfl
    rw [ha, hb]
  · rw [if_neg hle, if_neg hle, select_zero]
    exact IdealRules.named_const.ideal_named_scalar _ _ _ _ rfl

/-- THE SHIFTED EXPONENTIAL: an array whose row q is m, minus its row maximum kept as a column, exponentiated. -/
theorem shiftedExp_apply (s : FVec Ideal S256x256 .f32) (m : Fin 256 → EReal) (q : Fin 256) (hs : ∀ k, s (ix2 q k) = m k)
    (k : Fin 256) :
    exp (subf s (broadcastTo S256x256
        (shapeCast S256x1 (multiReduction (F := Ideal) .maximumf [1] S256 s 0xFF800000#32 reduces_S256x256_S256 (.inl rfl) rfl)
          shapeCasts_S256_S256x1) broadcasts_S256x1_S256x256)) (ix2 q k)
      = Ideal.exp (m k - (Finset.univ : Finset (Fin 256)).fold max ⊥ m) := by
  refine congrArg Ideal.exp ?_
  refine (subf_apply _ _ _).trans ?_
  refine congrArg₂ (· - ·) (hs k) ?_
  refine (keepdims_apply _ q k).trans ?_
  refine (rowMax_apply s q).trans ?_
  exact congrArg (fun f => (Finset.univ : Finset (Fin 256)).fold max ⊥ f) (funext hs)

/-- THE NORMALISATION: an array whose row q is w, divided by its row sum kept as a column. -/
theorem normalised_apply (p : FVec Ideal S256x256 .f32) (w : Fin 256 → EReal) (q : Fin 256) (hp : ∀ k, p (ix2 q k) = w k)
    (k : Fin 256) :
    divf p (broadcastTo S256x256
        (shapeCast S256x1 (multiReduction (F := Ideal) .add [1] S256 p 0x00000000#32 reduces_S256x256_S256 (.inl rfl) rfl)
          shapeCasts_S256_S256x1) broadcasts_S256x1_S256x256) (ix2 q k)
      = Ideal.div (w k) (∑ k' : Fin 256, w k') := by
  refine (divf_apply _ _ _).trans ?_
  refine congrArg₂ Ideal.div (hp k) ?_
  refine (keepdims_apply _ q k).trans ?_
  refine (rowSum_apply p q).trans ?_
  exact Finset.sum_congr rfl fun k' _ => hp k'

/-! ## One sequence -/

/-- ONE SEQUENCE'S PAYLOAD AT AN ENTRY: with Q, K, V the three column blocks of the projection row, the kernel's
    value at query position q and head coordinate h is the causal softmax attention of the specification. -/
theorem pay2_apply (v19 : Vec Ideal S1x256x192 .bf16) (q : Fin 256) (h : Fin 64) :
    Gen.k0_pay2 (F := Ideal) v19 (ix3 (0 : Fin 1) q h)
      = Cert.CausalAttn.attnSeq
          (fun t a => v19 (ix3 (0 : Fin 1) t (⟨a.val, by omega⟩ : Fin 192)))
          (fun t a => v19 (ix3 (0 : Fin 1) t (⟨64 + a.val, by omega⟩ : Fin 192)))
          (fun t a => v19 (ix3 (0 : Fin 1) t (⟨128 + a.val, by omega⟩ : Fin 192))) q h := by
  unfold Gen.k0_pay2
  refine (shapeCast_ab_1ab_apply _ shapeCasts_S256x64_S1x256x64 0 q h).trans ?_
  refine (outMatmul_apply _ _ q h).trans ?_
  unfold Cert.CausalAttn.attnSeq
  refine Finset.sum_congr rfl fun k _ => congrArg₂ (· * ·) ?_ ?_
  · refine (truncf_apply _ bitsLt_bf16_f32 _).trans ?_
    refine normalised_apply _ (Cert.CausalAttn.weight _ _ q) q (fun k' => ?_) k
    refine shiftedExp_apply _ (Cert.CausalAttn.masked _ _ q) q (fun k'' => ?_) k'
    refine maskedScores_apply _ _ _ _ (fun t a => ?_) (fun t a => ?_) q k''
    · exact qBlock_apply v19 t a
    · exact kBlock_apply v19 t a
  · exact vBlock_apply v19 k h

end Cert.KernelIdeal.PayValue

end
-- ==== Proof.IdealArray.lean ====
/-
  The kernel's result array, as the specification of the argument arrays.

  Grid point `t` handles batch rows `16 t … 16 t + 15`: its block of `x` is those sixteen sequences, the weights' window is
  the whole concatenated array (columns 0 … 63 the query weights, 64 … 127 the key weights, 128 … 191 the value weights),
  and it writes back rows `16 t … 16 t + 15` of the result. The block it leaves is, row by row, one sequence's causal
  attention of the three column blocks of the fused projection — which are that batch row's query, key and value
  projections. So what point `t` writes back is block `t` of the specification, and the thirty-two blocks tile the
  result array: after the run the result array IS the specification of the four argument arrays.
-/
import proofs.«151432_j62749472194710_2_alg».proof.Proof.IdealBlock
import proofs.«151432_j62749472194710_2_alg».proof.Proof.ProjPayload
import proofs.«151432_j62749472194710_2_alg».proof.Proof.SeqPayload
import proofs.«151432_j62749472194710_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.Entry Cert.CausalAttn
open Idealize.ShloMosaic Idealize.ShloMosaic.TcCoe Idealize.ShloMosaic.Tactic Idealize.ShloMosaic.ValueIdx
open Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The concatenated weights -/

/-- The three argument weights, in the order they are laid side by side. -/
abbrev weightList (c : Dev nD) : List ((s : Shape) × (s.Idx → EReal)) :=
  [⟨S384x64, m ((c : Thread nD τ).loc main_arg1)⟩, ⟨S384x64, m ((c : Thread nD τ).loc main_arg2)⟩, ⟨S384x64, m ((c : Thread nD τ).loc main_arg3)⟩]

/-- The weights' array as the region finds it: the three argument weights side by side along the columns. -/
theorem weights_eq (c : Dev nD) : (V m c main_v0 : S384x192.Idx → EReal)
    = concatenate S384x192 1 (weightList m c) concatenates_S384x64_S384x64_S384x64_S384x192_d1 := by
  dsimp only [V, hostOps0]; after_results; rfl

/-- Column `a` of the first sixty-four is column `a` of the query weights; -/
theorem weights_q (c : Dev nD) (cc : Fin 384) (a : Fin 64) :
    (V m c main_v0 : S384x192.Idx → EReal) (ix2 cc (⟨a.val, by omega⟩ : Fin 192)) = (m ((c : Thread nD τ).loc main_arg1) : S384x64.Idx → EReal) (ix2 cc a) := by
  rw [weights_eq]
  exact concatenate_apply_piece (t := S384x192) (1 : Fin 2) (weightList m c) concatenates_S384x64_S384x64_S384x64_S384x192_d1 _ 0 (by show 0 < 3; omega) S384x64 _ rfl rfl 0 rfl (ix2 cc a)
    (fun b hb => by match b with | ⟨0, _⟩ => rfl | ⟨1, _⟩ => exact absurd rfl hb) (Nat.zero_add _)
/-- column `64 + a` is column `a` of the key weights; -/
theorem weights_k (c : Dev nD) (cc : Fin 384) (a : Fin 64) :
    (V m c main_v0 : S384x192.Idx → EReal) (ix2 cc (⟨64 + a.val, by omega⟩ : Fin 192)) = (m ((c : Thread nD τ).loc main_arg2) : S384x64.Idx → EReal) (ix2 cc a) := by
  rw [weights_eq]
  exact concatenate_apply_piece (t := S384x192) (1 : Fin 2) (weightList m c) concatenates_S384x64_S384x64_S384x64_S384x192_d1 _ 1 (by show 1 < 3; omega) S384x64 _ rfl rfl 64 rfl (ix2 cc a)
    (fun b hb => by match b with | ⟨0, _⟩ => rfl | ⟨1, _⟩ => exact absurd rfl hb) rfl
/-- column `128 + a` is column `a` of the value weights. -/
theorem weights_v (c : Dev nD) (cc : Fin 384) (a : Fin 64) :
    (V m c main_v0 : S384x192.Idx → EReal) (ix2 cc (⟨128 + a.val, by omega⟩ : Fin 192)) = (m ((c : Thread nD τ).loc main_arg3) : S384x64.Idx → EReal) (ix2 cc a) := by
  rw [weights_eq]
  exact concatenate_apply_piece (t := S384x192) (1 : Fin 2) (weightList m c) concatenates_S384x64_S384x64_S384x64_S384x192_d1 _ 2 (by show 2 < 3; omega) S384x64 _ rfl rfl 128 rfl (ix2 cc a)
    (fun b hb => by match b with | ⟨0, _⟩ => rfl | ⟨1, _⟩ => exact absurd rfl hb) rfl

/-! ## One block, from its input blocks -/

/-- Row `n` of the block the body leaves: one sequence's causal attention of the three column blocks of the fused
    projection of that sequence. -/
theorem blockOf_apply (x0 : Vec Ideal S16x256x384 .f32) (x1 : Vec Ideal S384x192 .f32) (n : Fin 16) (r : Fin 256) (h : Fin 64) :
    blockOf (F := Ideal) x0 x1 (ix3 n r h)
      = attnSeq (fun t a => ∑ cc : Fin 384, x0 (ix3 n t cc) * x1 (ix2 cc (⟨a.val, by omega⟩ : Fin 192)))
          (fun t a => ∑ cc : Fin 384, x0 (ix3 n t cc) * x1 (ix2 cc (⟨64 + a.val, by omega⟩ : Fin 192)))
          (fun t a => ∑ cc : Fin 384, x0 (ix3 n t cc) * x1 (ix2 cc (⟨128 + a.val, by omega⟩ : Fin 192))) r h := by
  have hP : ∀ (t : Fin 256) (j : Fin 192), projRow (F := Ideal) (k0_pay1 (F := Ideal) x0 x1) n (ix3 (0 : Fin 1) t j) = (∑ cc : Fin 384, x0 (ix3 n t cc) * x1 (ix2 cc j) : EReal) :=
    fun t j => by unfold projRow; exact PayValue.pay1_apply x0 x1 n t j
  show k0_pay2 (F := Ideal) (projRow (k0_pay1 (F := Ideal) x0 x1) n) (ix3 (0 : Fin 1) r h) = _
  rw [PayValue.pay2_apply]
  simp only [hP]

/-- The same with the input blocks named by what they hold: sixteen sequences `B … B + 15` of an array `X`, and a
    weight array whose three column blocks are `wq`, `wk`, `wv`: row `n` of the block is the specification at batch
    row `B + n`. -/
theorem blockOf_attn (X : XS.Idx → EReal) (wq wk wv : WS.Idx → EReal)
    (x0 : Vec Ideal S16x256x384 .f32) (x1 : Vec Ideal S384x192 .f32) (n : Fin 16) (b : Fin 512)
    (hx0 : ∀ (t : Fin 256) (cc : Fin 384), x0 (ix3 n t cc) = X (ix3 b t cc))
    (hq : ∀ (cc : Fin 384) (a : Fin 64), x1 (ix2 cc (⟨a.val, by omega⟩ : Fin 192)) = wq (ix2 cc a))
    (hk : ∀ (cc : Fin 384) (a : Fin 64), x1 (ix2 cc (⟨64 + a.val, by omega⟩ : Fin 192)) = wk (ix2 cc a))
    (hv : ∀ (cc : Fin 384) (a : Fin 64), x1 (ix2 cc (⟨128 + a.val, by omega⟩ : Fin 192)) = wv (ix2 cc a))
    (r : Fin 256) (h : Fin 64) :
    blockOf (F := Ideal) x0 x1 (ix3 n r h) = attn X wq wk wv (ix3 b r h) := by
  rw [blockOf_apply]
  simp only [hx0, hq, hk, hv]
  rfl

/-! ## The index maps -/

/-- The printed index maps over the grid: `x`'s and the result's block index is the point along the batch axis and
    zero elsewhere; the weights' block never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Every block of sixteen batch rows is some point's. -/
theorem idx_onto : ∀ q0 : Fin 32, ∃ t : Fin cfg0.N, win0_2.index t = ![q0.val, 0, 0] :=
  (by decide +kernel : ∀ q0 : Fin 32, ∃ t : Fin grid0.N, win0_2.index t = ![q0.val, 0, 0])

/-! ## What a point writes back -/

/-- Point `t` writes back block `t` of the specification of the argument arrays. -/
theorem flushed_eq (c : Dev nD) (t : Fin cfg0.N) :
    (dats m 0 c).flushed 2 t = ((cfg0.win 2).blk t).view.read (Elt Ideal)
      (attn (m ((c : Thread nD τ).loc main_arg0)) (m ((c : Thread nD τ).loc main_arg1)) (m ((c : Thread nD τ).loc main_arg2)) (m ((c : Thread nD τ).loc main_arg3))) := by
  show (cfg0.win 2).cut (grid0.coords t) ((dats m 0 c).after 2 t) = _
  rw [after0_2]
  unfold outsAt
  rw [out3_eq]
  obtain ⟨e0, e1, e2, e3, e4, e5, e6, e7⟩ := idx_facts t
  have ht : t.val < 32 := N_0 ▸ t.isLt
  funext j
  obtain ⟨n, r, h, rfl⟩ : ∃ (n : Fin 16) (r : Fin 256) (h : Fin 64), j = ix3 n r h := ⟨j 0, j 1, j 2, eq_ix3 j⟩
  show blockOf (F := Ideal) (iblk m c 0 t) (iblk m c 1 t) (ix3 n r h)
    = attn (m ((c : Thread nD τ).loc main_arg0)) (m ((c : Thread nD τ).loc main_arg1)) (m ((c : Thread nD τ).loc main_arg2)) (m ((c : Thread nD τ).loc main_arg3)) (((cfg0.win 2).blk t).view.emb (ix3 n r h))
  have hn : n.val < 16 := n.isLt
  have hemb : ((cfg0.win 2).blk t).view.emb (ix3 n r h) = ix3 (⟨t.val * 16 + n.val, by omega⟩ : Fin 512) r h := by
    funext a; apply Fin.ext
    match a with
    | ⟨0, _⟩ => show win0_2.index t (0 : Fin 3) * 16 + 1 * n.val = t.val * 16 + n.val; omega
    | ⟨1, _⟩ => show win0_2.index t (1 : Fin 3) * 256 + 1 * r.val = r.val; omega
    | ⟨2, _⟩ => show win0_2.index t (2 : Fin 3) * 64 + 1 * h.val = h.val; omega
  rw [hemb]
  refine blockOf_attn _ _ _ _ (iblk m c 0 t) (iblk m c 1 t) n _ ?_ ?_ ?_ ?_ r h
  · intro t' cc
    show V m c main_arg0 (((cfg0.win 0).blk t).view.emb (ix3 n t' cc)) = _
    rw [V_main_arg0]
    congr 1
    funext a; apply Fin.ext
    match a with
    | ⟨0, _⟩ => show win0_0.index t (0 : Fin 3) * 16 + 1 * n.val = t.val * 16 + n.val; omega
    | ⟨1, _⟩ => show win0_0.index t (1 : Fin 3) * 256 + 1 * t'.val = t'.val; omega
    | ⟨2, _⟩ => show win0_0.index t (2 : Fin 3) * 384 + 1 * cc.val = cc.val; omega
  · intro cc a
    show V m c main_v0 (((cfg0.win 1).blk t).view.emb (ix2 cc (⟨a.val, by omega⟩ : Fin 192))) = _
    rw [← weights_q m c cc a]
    congr 1
    funext d; apply Fin.ext
    match d with
    | ⟨0, _⟩ => show win0_1.index t (0 : Fin 2) * 384 + 1 * cc.val = cc.val; omega
    | ⟨1, _⟩ => show win0_1.index t (1 : Fin 2) * 192 + 1 * a.val = a.val; omega
  · intro cc a
    show V m c main_v0 (((cfg0.win 1).blk t).view.emb (ix2 cc (⟨64 + a.val, by omega⟩ : Fin 192))) = _
    rw [← weights_k m c cc a]
    congr 1
    funext d; apply Fin.ext
    match d with
    | ⟨0, _⟩ => show win0_1.index t (0 : Fin 2) * 384 + 1 * cc.val = cc.val; omega
    | ⟨1, _⟩ => show win0_1.index t (1 : Fin 2) * 192 + 1 * (64 + a.val) = 64 + a.val; omega
  · intro cc a
    show V m c main_v0 (((cfg0.win 1).blk t).view.emb (ix2 cc (⟨128 + a.val, by omega⟩ : Fin 192))) = _
    rw [← weights_v m c cc a]
    congr 1
    funext d; apply Fin.ext
    match d with
    | ⟨0, _⟩ => show win0_1.index t (0 : Fin 2) * 384 + 1 * cc.val = cc.val; omega
    | ⟨1, _⟩ => show win0_1.index t (1 : Fin 2) * 192 + 1 * (128 + a.val) = 128 + a.val; omega

/-! ## The blocks tile the result -/

/-- An index of the result array is in point `t`'s block iff each coordinate is in the block's range on its axis. -/
theorem mem_blk (t : Fin cfg0.N) (i : S512x256x64.Idx) :
    i ∈ ((cfg0.win 2).blk t).view.set ↔ ∀ a : Fin 3, win0_2.index t a * S16x256x64.size a ≤ (i a).val ∧ (i a).val < win0_2.index t a * S16x256x64.size a + S16x256x64.size a := by
  show i ∈ ((View.whole main_v1).slice (win0_2.rect t)).set ↔ _
  rw [View.set_slice_whole, Rect.mem_set_unit]
  exact Iff.rfl

/-- Every index of the result array is in the block of the point its batch row names. -/
theorem covered (i : S512x256x64.Idx) : ∃ t : Fin cfg0.N, (cfg0.win 2).flush t = true ∧ i ∈ ((cfg0.win 2).blk t).view.set := by
  have hi0 : (i 0).val < 512 := (i 0).isLt
  have hi1 : (i 1).val < 256 := (i 1).isLt
  have hi2 : (i 2).val < 64 := (i 2).isLt
  obtain ⟨t, ht⟩ := idx_onto ⟨(i 0).val / 16, by omega⟩
  have q0 : win0_2.index t (0 : Fin 3) = (i 0).val / 16 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 256 ≤ (i 1).val ∧ (i 1).val < win0_2.index t (1 : Fin 3) * 256 + 256; omega
  | ⟨2, _⟩ => show win0_2.index t (2 : Fin 3) * 64 ≤ (i 2).val ∧ (i 2).val < win0_2.index t (2 : Fin 3) * 64 + 64; omega

/-- After the run the result array is the specification of the argument arrays. -/
theorem final (c : Dev nD) : (dats m 0 c).arrAt 2 cfg0.N
    = attn (m ((c : Thread nD τ).loc main_arg0)) (m ((c : Thread nD τ).loc main_arg1)) (m ((c : Thread nD τ).loc main_arg2)) (m ((c : Thread nD τ).loc main_arg3)) :=
  (dats m 0 c).arrAt_eq_of_cover 2 _ (fun t _ => flushed_eq m c t) covered

/-! ## The run, with the result named -/

/-- Every weakly fair execution of @main terminates, nothing faulting, with the result array at the specification of
    the argument arrays and the argument arrays as launched. -/
theorem run : θ_run defs (onTc (τ := τ) (main (F := Ideal))) ⟨m, fun _ => 0, ρ⟩ fun r => ∀ c : Dev nD,
      r.2.mem ((c.tc : Thread nD τ).loc main_v1) = attn (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.ArrayValue

end
-- ==== Proof.RefIsAttn.lean ====
/-
  The reference program, stage by stage, IS causal softmax attention.

  The reference program computes, for every batch row, the three projections of the input, the scaled scores of
  every query position against every key position, masks the keys after the query to −∞, subtracts each row's
  maximum, exponentiates, divides by the row's sum, and multiplies the normalised row into the values. Each stage
  is read here at an explicit index (batch row `b`, query `q`, key `k`, head coordinate `h`) and identified with
  the corresponding function of the specification; the last lemma assembles them into the equality of the two
  arrays.
-/
import proofs.«151432_j62749472194710_2_alg».proof.Proof.Gen.ReferenceIdeal.Read
import proofs.«151432_j62749472194710_2_alg».proof.Proof.Spec

noncomputable section

open scoped BigOperators

namespace Cert.ReferenceIdeal.RefValue

open Cert.ReferenceIdeal Cert.ReferenceIdeal.Gen Idealize.ShloMosaic Idealize.ShloMosaic.ValueIdx Cert.CausalAttn

/-! ## The causal mask: key `k` is kept for query `q` exactly when `k ≤ q` -/

/-- A number below 256, written as a 32-bit word, reads back as itself as a signed integer. -/
theorem toInt_ofNat_small (n : Nat) (h : n < 256) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- The signed comparison `k ≤ q + 0` of two positions as 32-bit words is the comparison of the positions. -/
theorem sle_ofNat (q k : Fin 256) :
    (BitVec.ofNat 32 k.val).sle (IntOp.addi (BitVec.ofNat 32 q.val) 0#32) = decide (k.val ≤ q.val) := by
  unfold IntOp.addi
  rw [BitVec.add_zero]
  unfold BitVec.sle
  rw [toInt_ofNat_small _ q.isLt, toInt_ofNat_small _ k.isLt]
  exact decide_eq_decide.2 Int.ofNat_le

/-- Selecting by the lower-triangular mask at (q, k) is selecting by `k ≤ q`: the mask is "row index + 0 ≥ column
    index" over the two index grids, applied to the all-true matrix with false elsewhere. -/
theorem mask_select {α : Type} (q k : Fin 256) (a b : α) :
    Scalar.select (Read.val_main_v7 (F := Ideal) (ix2 q k)) a b = if k.val ≤ q.val then a else b := by
  rw [Read.val_main_v7_apply, Read.val_main_call0_v4_apply, Read.val_main_call0_v2_apply, Read.val_main_call0_v0_apply,
    Read.val_main_call0_v3_apply, Read.val_main_call0_v1_apply, Read.val_main_call0_c_apply, Read.val_main_v6_apply,
    Read.val_main_c_apply, Read.val_main_call0_v5_apply, Read.val_main_call0_c_0_apply]
  show Scalar.select (Scalar.select (BitVec.ofBool ((BitVec.ofNat 32 k.val).sle (IntOp.addi (BitVec.ofNat 32 q.val) 0#32))) 1#1 0#1) a b = _
  rw [sle_ofNat]
  by_cases h : k.val ≤ q.val
  · rw [if_pos h, decide_eq_true h]; rfl
  · rw [if_neg h, decide_eq_false h]; rfl

/-! ## Two constants -/

/-- The word `0xFF800000` denotes −∞, the bottom of the extended reals. -/
theorem negInf : Ideal.ofBits .f32 0xFF800000#32 = (⊥ : EReal) := by simp [Ideal.ofBits, Ideal.ieee]

/-! ## The stages, each at an index -/

section Stages

variable (x : XS.Idx → EReal) (wq wk wv : WS.Idx → EReal)

/-- The first contraction is the projection of the input by the first weight. -/
theorem v0_apply (w : WS.Idx → EReal) (b : Fin 512) (t : Fin 256) (h : Fin 64) :
    Read.val_main_v0 (F := Ideal) x w (ix3 b t h) = proj x w b t h := by
  rw [Read.val_main_v0_apply]
  unfold proj
  refine Finset.sum_congr rfl fun c _ => ?_
  have el : Read.lidx_main_v0 (ix3 b t h) c = ix3 b t c :=
    funext fun a => Fin.ext (by match a with | ⟨0, _⟩ => rfl | ⟨1, _⟩ => rfl | ⟨2, _⟩ => rfl)
  have er : Read.ridx_main_v0 (ix3 b t h) c = ix2 c h :=
    funext fun a => Fin.ext (by match a with | ⟨0, _⟩ => rfl | ⟨1, _⟩ => rfl)
  rw [el, er]

/-- The second and third contractions are the same projection with the second and third weight. -/
theorem v1_apply (w : WS.Idx → EReal) (b : Fin 512) (t : Fin 256) (h : Fin 64) :
    Read.val_main_v1 (F := Ideal) x w (ix3 b t h) = proj x w b t h := v0_apply x w b t h

theorem v2_apply (w : WS.Idx → EReal) (b : Fin 512) (t : Fin 256) (h : Fin 64) :
    Read.val_main_v2 (F := Ideal) x w (ix3 b t h) = proj x w b t h := v0_apply x w b t h

/-- The scaled score of query `q` against key `k` in batch row `b`: the queries' row against the keys' row, summed over
    the head coordinate, times the scale word. -/
theorem v5_apply (b : Fin 512) (q k : Fin 256) :
    Read.val_main_v5 (F := Ideal) x wq wk (ix3 b q k) = score (proj x wq b) (proj x wk b) q k := by
  rw [Read.val_main_v5_apply, Read.val_main_v3_apply, Read.val_main_v4_apply, Read.val_main_cst_apply]
  unfold score
  refine congrArg₂ (· * ·) (Finset.sum_congr rfl fun h _ => ?_) rfl
  have el : Read.lidx_main_v3 (ix3 b q k) h = ix3 b q h :=
    funext fun a => Fin.ext (by match a with | ⟨0, _⟩ => rfl | ⟨1, _⟩ => rfl | ⟨2, _⟩ => rfl)
  have er : Read.ridx_main_v3 (ix3 b q k) h = ix3 b k h :=
    funext fun a => Fin.ext (by match a with | ⟨0, _⟩ => rfl | ⟨1, _⟩ => rfl | ⟨2, _⟩ => rfl)
  rw [el, er, v0_apply, v1_apply]

/-- After the mask: the score where the key is at or before the query, −∞ after it. -/
theorem v8_apply (b : Fin 512) (q k : Fin 256) :
    Read.val_main_v8 (F := Ideal) x wq wk (ix3 b q k) = masked (proj x wq b) (proj x wk b) q k := by
  rw [Read.val_main_v8_apply, Read.val_main_call1_v1_apply, Read.val_main_call1_v2_apply, Read.val_main_call1_v0_apply,
    Read.val_main_cst_0_apply]
  have em : Read.idx_main_call1_v1 (ix3 b q k) = ix2 q k :=
    funext fun a => Fin.ext (by match a with | ⟨0, _⟩ => rfl | ⟨1, _⟩ => rfl)
  rw [em, mask_select, v5_apply]
  unfold masked
  exact congrArg (fun z => if k.val ≤ q.val then score (proj x wq b) (proj x wk b) q k else z) negInf

/-- The row maximum: the fold of `max` from −∞ over the 256 key positions of the masked row; taking the maximum
    with −∞ once more changes nothing. -/
theorem v11_apply (b : Fin 512) (q : Fin 256) :
    Read.val_main_v11 (F := Ideal) x wq wk (ix2 b q) = rowMax (proj x wq b) (proj x wk b) q := by
  rw [Read.val_main_v11_apply, Read.val_main_v10_apply, Read.val_main_cst_2_apply]
  show max (Ideal.ofBits .f32 0xFF800000#32) (Read.val_main_v9 (F := Ideal) x wq wk (ix2 b q)) = _
  rw [negInf, bot_sup_eq]
  unfold Read.val_main_v9
  have hR : S512x256x256.Reduces [2] S512x256 := by decide
  refine (Host.reduce_eq_fold_single (FloatOps.maximumf (F := Ideal) (φ := .f32)) (Read.val_main_v8 (F := Ideal) x wq wk) _
    reducesTo_S512x256x256_S512x256_d2 hR h_S_ (ix2 b q)).trans ?_
  show Finset.fold max (Ideal.ofBits .f32 0xFF800000#32)
    (fun k : Fin 256 => Read.val_main_v8 (F := Ideal) x wq wk (hR.lift (ix2 b q) k)) Finset.univ = _
  rw [negInf]
  unfold rowMax
  refine congrArg (fun f => Finset.fold max (⊥ : EReal) f (Finset.univ : Finset (Fin 256))) (funext fun k => ?_)
  have e : hR.lift (ix2 b q) k = ix3 b q k :=
    funext fun a => Fin.ext (by match a with | ⟨0, _⟩ => rfl | ⟨1, _⟩ => rfl | ⟨2, _⟩ => rfl)
  rw [e, v8_apply]

/-- The unnormalised weight: the exponential of the masked score less the row's maximum. -/
theorem v15_apply (b : Fin 512) (q k : Fin 256) :
    Read.val_main_v15 (F := Ideal) x wq wk (ix3 b q k) = weight (proj x wq b) (proj x wk b) q k := by
  rw [Read.val_main_v15_apply, Read.val_main_v14_apply, Read.val_main_v13_apply, Read.val_main_v12_apply]
  have e : Read.idx_main_v12 (Read.idx_main_v13 (ix3 b q k)) = ix2 b q :=
    funext fun a => Fin.ext (by match a with | ⟨0, _⟩ => rfl | ⟨1, _⟩ => rfl)
  rw [e, v11_apply, v8_apply]
  rfl

/-- The row's normaliser: zero plus the sum of the weights over the key positions. -/
theorem v16_apply (b : Fin 512) (q : Fin 256) :
    Read.val_main_v16 (F := Ideal) x wq wk (ix2 b q) = denom (proj x wq b) (proj x wk b) q := by
  rw [Read.val_main_v16_apply, Read.val_main_cst_3_apply]
  show Ideal.ofBits .f32 0x00000000#32 + _ = _
  rw [Ideal.ofBits_zero_f32, zero_add]
  unfold denom
  refine Finset.sum_congr rfl fun k _ => ?_
  have e : Read.idx_main_v16 (ix2 b q) k = ix3 b q k :=
    funext fun a => Fin.ext (by match a with | ⟨0, _⟩ => rfl | ⟨1, _⟩ => rfl | ⟨2, _⟩ => rfl)
  rw [e, v15_apply]

/-- The normalised weight. -/
theorem v19_apply (b : Fin 512) (q k : Fin 256) :
    Read.val_main_v19 (F := Ideal) x wq wk (ix3 b q k)
      = Ideal.div (weight (proj x wq b) (proj x wk b) q k) (denom (proj x wq b) (proj x wk b) q) := by
  rw [Read.val_main_v19_apply, Read.val_main_v18_apply, Read.val_main_v17_apply]
  have e : Read.idx_main_v17 (Read.idx_main_v18 (ix3 b q k)) = ix2 b q :=
    funext fun a => Fin.ext (by match a with | ⟨0, _⟩ => rfl | ⟨1, _⟩ => rfl)
  rw [e, v16_apply, v15_apply]
  rfl

/-- The output: the normalised row against the values, summed over the key positions. -/
theorem v20_apply (b : Fin 512) (q : Fin 256) (h : Fin 64) :
    Read.val_main_v20 (F := Ideal) x wq wk wv (ix3 b q h)
      = attnSeq (proj x wq b) (proj x wk b) (proj x wv b) q h := by
  rw [Read.val_main_v20_apply]
  unfold attnSeq
  refine Finset.sum_congr rfl fun k _ => ?_
  have el : Read.lidx_main_v20 (ix3 b q h) k = ix3 b q k :=
    funext fun a => Fin.ext (by match a with | ⟨0, _⟩ => rfl | ⟨1, _⟩ => rfl | ⟨2, _⟩ => rfl)
  have er : Read.ridx_main_v20 (ix3 b q h) k = ix3 b k h :=
    funext fun a => Fin.ext (by match a with | ⟨0, _⟩ => rfl | ⟨1, _⟩ => rfl | ⟨2, _⟩ => rfl)
  rw [el, er, v19_apply, v2_apply]

end Stages

/-! ## The whole array -/

/-- The reference program's result is the causal softmax attention of the specification, entry by entry. -/
theorem ref_is_attn (x : XS.Idx → EReal) (wq wk wv : WS.Idx → EReal) :
    Read.val_main_v20 (F := Ideal) x wq wk wv = Cert.CausalAttn.attn x wq wk wv := by
  funext i
  obtain ⟨b, q, h, rfl⟩ : ∃ (b : Fin 512) (q : Fin 256) (h : Fin 64), i = ix3 b q h := ⟨i 0, i 1, i 2, eq_ix3 i⟩
  exact v20_apply x wq wk wv b q h

/-! ## The same, on the run's result -/

section OnRun

open Idealize.ShloMosaic.TcCoe Idealize.SL.Sem

/-- The reference program's result buffer, as its run states it from the launch memory `m` on device `c`, is the
    attention of the four argument arrays that memory holds. -/
theorem res_is_attn (m : (ℓ : Loc nD τ sig) → Buf (Elt Ideal) ℓ) (c : Dev nD) :
    Cert.ReferenceIdeal.Value.res_main_v20 (F := Ideal) m c
      = Cert.CausalAttn.attn (m ((c.tc : Thread nD τ).loc main_arg0)) (m ((c.tc : Thread nD τ).loc main_arg1))
          (m ((c.tc : Thread nD τ).loc main_arg2)) (m ((c.tc : Thread nD τ).loc main_arg3)) :=
  (Read.val_main_v20_eq m c).trans (ref_is_attn _ _ _ _)

end OnRun

end Cert.ReferenceIdeal.RefValue

end
-- ==== Proof.lean ====
/-
  The certificate of a fused causal-attention kernel against its jnp reference.

  The kernel computes, for each of 512 sequences of 256 positions, single-head causal softmax attention: one matrix
  product of the 384-wide embeddings with the three [384, 64] weights laid side by side gives the query, key and value
  projections; the scores q·kᵀ are scaled by one f32 word, a key after the query is masked by a constant that stands for
  −∞, each row is shifted by its maximum, exponentiated, normalised by its sum and multiplied with the values. The
  reference takes the three projections separately, masks with −∞ itself, and goes through the same softmax.

  On the extended reals the two are ONE function of the four argument arrays, entry by entry (the specification
  `Cert.CausalAttn.attn`): changes of float format are the identity, a matrix product into a zero accumulator is the plain
  sum over the contracted coordinate (so fusing the three projections changes nothing), the masking constant is named
  `⊥`, and the reference's extra maximum with −∞ is the identity. No law that needs finiteness is used, so the
  precondition is never opened.

  Frames: each kernel program is one host operation (the weights' concatenation) and one pipelined region of 32 grid
  points; the body is run once at a generic point (its counted loop of sixteen trips by its invariant), and the
  pipeline's launch theorem gives termination, no fault, and the argument arrays unchanged — once at the word level
  and once on the extended reals. The reference is a straight line of host operations.
-/
import proofs.«151432_j62749472194710_2_alg».proof.Defs
import proofs.«151432_j62749472194710_2_alg».proof.Proof.Gen.Kernel
import proofs.«151432_j62749472194710_2_alg».proof.Proof.Gen.KernelIdeal
import proofs.«151432_j62749472194710_2_alg».proof.Proof.Gen.ReferenceIdeal
import proofs.«151432_j62749472194710_2_alg».proof.Proof.Gen.ReferenceIdeal.Read
import proofs.«151432_j62749472194710_2_alg».proof.Proof.Gen.Pre_finite_inputs
import proofs.«151432_j62749472194710_2_alg».proof.Proof.BitsFrame
import proofs.«151432_j62749472194710_2_alg».proof.Proof.IdealArray
import proofs.«151432_j62749472194710_2_alg».proof.Proof.RefIsAttn
import Idealize.ShloMosaic.Adequacy
import Idealize.ShloMosaic.Init

noncomputable section

namespace Cert.Proof

open Idealize.ShloMosaic Idealize.ShloMosaic.TcCoe Idealize.SL.Sem

/-- The word-level kernel runs, nothing faults, and its argument arrays end as launched. -/
theorem frame_kernel : Cert.frame_Kernel := fun m ρ _ => Cert.Kernel.Entry.frame (F := Bits) m ρ

/-- The same of the kernel on the extended reals. -/
theorem frame_kernelIdeal : Cert.frame_KernelIdeal := fun m ρ _ => Cert.KernelIdeal.Entry.frame (F := Ideal) m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the masking constant −0.7 · (largest finite f32) is named, and the name
    denotes `⊥` on the extended reals. -/
theorem preserves : Cert.preserves_Kernel_KernelIdeal :=
  IdealRules.named_const.statement Cert.KernelIdeal.κ "neg_big" .f32 0xFF333332#32 ⊥ rfl

/-- On the extended reals, from memories that agree on the arguments, the kernel's result array and the reference's
    both end at the specification of the four argument arrays. -/
theorem algebraic : Cert.algebraic_KernelIdeal_ReferenceIdeal := by
  intro m ρ m' ρ' _ hagree
  refine ⟨fun c => Cert.CausalAttn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_is_attn, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
